-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S400000 : Shape := ⟨1, ![400000]⟩
abbrev S1024 : Shape := ⟨1, ![1024]⟩
abbrev S64 : Shape := ⟨1, ![64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S400000 : S_.BroadcastsInDim S400000 (![] : Fin 0 → Fin S400000.rank)
  reducesTo_S400000_S_d0 : S400000.ReducesTo [0] S_
  bcast_S_S1024 : S_.BroadcastsInDim S1024 (![] : Fin 0 → Fin S1024.rank)
  reducesTo_S1024_S_d0 : S1024.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x2048 .f32) (main_arg1 : FVec F S400000 .f32) (main_arg2 : IVec S400000 32) (main_arg3 : IVec S400000 32) (main_arg4 : FVec F S1024 .f32) (main_arg5 : IVec S1024 32) (main_arg6 : FVec F S64 .f32) (main_arg7 : IVec S64 32) (main_arg8 : FVec F S64 .f32) (main_arg9 : IVec S64 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S400000 .f32 := Host.absf main_arg1
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_v13 main_v16
-- ==== Kernel.lean ====
abbrev S8192x2048 : Shape := ⟨2, ![8192, 2048]⟩
abbrev S400000 : Shape := ⟨1, ![400000]⟩
abbrev S1024 : Shape := ⟨1, ![1024]⟩
abbrev S64 : Shape := ⟨1, ![64]⟩
abbrev S_ : Shape := ⟨0, ![]⟩
abbrev S64x1 : Shape := ⟨2, ![64, 1]⟩
abbrev S8192x64 : Shape := ⟨2, ![8192, 64]⟩
abbrev S1x64 : Shape := ⟨2, ![1, 64]⟩
abbrev S8192x2112 : Shape := ⟨2, ![8192, 2112]⟩
abbrev S8192x2176 : Shape := ⟨2, ![8192, 2176]⟩
abbrev S2048x2176 : Shape := ⟨2, ![2048, 2176]⟩
abbrev S400000x1 : Shape := ⟨2, ![400000, 1]⟩
abbrev S400000x2 : Shape := ⟨2, ![400000, 2]⟩
abbrev S2048 : Shape := ⟨1, ![2048]⟩
abbrev S1024x1 : Shape := ⟨2, ![1024, 1]⟩
abbrev S2176x2048 : Shape := ⟨2, ![2176, 2048]⟩
abbrev S1x2048 : Shape := ⟨2, ![1, 2048]⟩
abbrev S512x2176 : Shape := ⟨2, ![512, 2176]⟩
abbrev S512x2048 : Shape := ⟨2, ![512, 2048]⟩

abbrev nBuf : Space → Nat
  | .hbm => 72
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S400000, .f32⟩
  | .hbm, ⟨2, _⟩ => ⟨S400000, .i32⟩
  | .hbm, ⟨3, _⟩ => ⟨S400000, .i32⟩
  | .hbm, ⟨4, _⟩ => ⟨S1024, .f32⟩
  | .hbm, ⟨5, _⟩ => ⟨S1024, .i32⟩
  | .hbm, ⟨6, _⟩ => ⟨S64, .f32⟩
  | .hbm, ⟨7, _⟩ => ⟨S64, .i32⟩
  | .hbm, ⟨8, _⟩ => ⟨S64, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x2112, .f32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S8192x64, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S8192x2176, .f32⟩
  | .hbm, ⟨36, _⟩ => ⟨S_, .f32⟩
  | .hbm, ⟨37, _⟩ => ⟨S2048x2176, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x1, .i32⟩
  | .hbm, ⟨54, _⟩ => ⟨S400000x2, .i32⟩
  | .hbm, ⟨55, _⟩ => ⟨S2048x2176, .f32⟩
  | .hbm, ⟨56, _⟩ => ⟨S_, .f32⟩
  | .hbm, ⟨57, _⟩ => ⟨S2048, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S2048, .f32⟩
  | .hbm, ⟨67, _⟩ => ⟨S8192x2176, .bf16⟩
  | .hbm, ⟨68, _⟩ => ⟨S2176x2048, .f32⟩
  | .hbm, ⟨69, _⟩ => ⟨S2176x2048, .bf16⟩
  | .hbm, ⟨70, _⟩ => ⟨S1x2048, .f32⟩
  | .hbm, ⟨71, _⟩ => ⟨S8192x2048, .f32⟩
  | .local _ .vmem, ⟨0, _⟩ => ⟨S512x2176, .bf16⟩
  | .local _ .vmem, ⟨1, _⟩ => ⟨S512x2176, .bf16⟩
  | .local _ .vmem, ⟨2, _⟩ => ⟨S2176x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  concatenates_S8192x2048_S8192x64_S8192x2112_d1 : Shape.Concatenates [S8192x2048, S8192x64] S8192x2112 1
  concatenates_S8192x2112_S8192x64_S8192x2176_d1 : Shape.Concatenates [S8192x2112, S8192x64] S8192x2176 1
  bcast_S_S2048x2176 : S_.BroadcastsInDim S2048x2176 (![] : Fin 0 → Fin S2048x2176.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S_S2048 : S_.BroadcastsInDim S2048 (![] : Fin 0 → Fin S2048.rank)
  bcast_S_S1024 : S_.BroadcastsInDim S1024 (![] : Fin 0 → Fin S1024.rank)
  bcast_S1024_S1024x1_0 : S1024.BroadcastsInDim S1024x1 (![0] : Fin 1 → Fin S1024x1.rank)
  bitsLt_bf16_f32 : FTy.bits .bf16 < FTy.bits .f32
  transposes_S2048x2176_S2176x2048_1_0 : S2048x2176.Transposes [1, 0] S2176x2048
  shapeCasts_S2048_S1x2048 : S2048.ShapeCasts S1x2048
  inb_S512x2176_S512x2176_0_0 : ∀ a, (![0, 0] : Fin 2 → Nat) a + S512x2176.size a ≤ S512x2176.size a
  h_S512x2176 : 0 < S512x2176.numel
  shapeCasts_S512x2176_S512x2176 : S512x2176.ShapeCasts S512x2176
  inb_S2176x2048_S2176x2048_0_0 : ∀ a, (![0, 0] : Fin 2 → Nat) a + S2176x2048.size a ≤ S2176x2048.size a
  h_S2176x2048 : 0 < S2176x2048.numel
  shapeCasts_S2176x2048_S2176x2048 : S2176x2048.ShapeCasts S2176x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  gather_S8192x2048_S64x1_S8192x64_0_1_n_n_1_1_81921_wf : GatherDims.WF S8192x2048 S64x1 S8192x64 [0] [1] [] [1] [] 1 ![8192, 1]
  gather_S8192x2112_S64x1_S8192x64_0_1_n_n_1_1_81921_wf : GatherDims.WF S8192x2112 S64x1 S8192x64 [0] [1] [] [1] [] 1 ![8192, 1]
  scatter_S2048x2176_S400000x2_S400000_n_01_01_1_wf : ScatterDims.WF S2048x2176 S400000x2 S400000 [] [0, 1] [0, 1] 1
  scatter_S2048_S1024x1_S1024_n_0_0_1_wf : ScatterDims.WF S2048 S1024x1 S1024 [] [0] [0] 1
  dot_S512x2176_S2176x2048_S512x2048_1_0_0_1_n_n_wf : DotDims.WF S512x2176 S2176x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2176.size a ≤ S8192x2176.size a
  hwx0_0 : ∀ i : grid0.Coords, EltTy.bits .bf16 = 32 ∨ (Rect.block (s := S8192x2176) S512x2176.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2176x2048.size a ≤ S2176x2048.size a
  hwx0_1 : ∀ i : grid0.Coords, EltTy.bits .bf16 = 32 ∨ (Rect.block (s := S2176x2048) S2176x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def gather_S8192x2048_S64x1_S8192x64_0_1_n_n_1_1_81921 : GatherDims S8192x2048 S64x1 S8192x64 where
  offsetDims := [0]
  collapsedSliceDims := [1]
  operandBatchingDims := []
  startIndicesBatchingDims := []
  startIndexMap := [1]
  indexVectorDim := 1
  sliceSizes := ![8192, 1]
  wf := gather_S8192x2048_S64x1_S8192x64_0_1_n_n_1_1_81921_wf
def gather_S8192x2112_S64x1_S8192x64_0_1_n_n_1_1_81921 : GatherDims S8192x2112 S64x1 S8192x64 where
  offsetDims := [0]
  collapsedSliceDims := [1]
  operandBatchingDims := []
  startIndicesBatchingDims := []
  startIndexMap := [1]
  indexVectorDim := 1
  sliceSizes := ![8192, 1]
  wf := gather_S8192x2112_S64x1_S8192x64_0_1_n_n_1_1_81921_wf
def scatter_S2048x2176_S400000x2_S400000_n_01_01_1 : ScatterDims S2048x2176 S400000x2 S400000 where
  updateWindowDims := []
  insertedWindowDims := [0, 1]
  scatterDimsToOperandDims := [0, 1]
  indexVectorDim := 1
  wf := scatter_S2048x2176_S400000x2_S400000_n_01_01_1_wf
def scatter_S2048_S1024x1_S1024_n_0_0_1 : ScatterDims S2048 S1024x1 S1024 where
  updateWindowDims := []
  insertedWindowDims := [0]
  scatterDimsToOperandDims := [0]
  indexVectorDim := 1
  wf := scatter_S2048_S1024x1_S1024_n_0_0_1_wf
def dot_S512x2176_S2176x2048_S512x2048_1_0_0_1_n_n : DotDims S512x2176 S2176x2048 S512x2048 where
  lhsContracting := [1]
  rhsContracting := [0]
  lhsNonContracting := [0]
  rhsNonContracting := [1]
  lhsBatch := []
  rhsBatch := []
  wf := dot_S512x2176_S2176x2048_S512x2048_1_0_0_1_n_n_wf

abbrev win0_0 : Pipeline.Window sig grid0 :=
  Pipeline.Window.ofSpec (Memref.whole main_v45) S512x2176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2176x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S400000 : Shape := ⟨1, ![400000]⟩
abbrev S1024 : Shape := ⟨1, ![1024]⟩
abbrev S64 : Shape := ⟨1, ![64]⟩
abbrev S_ : Shape := ⟨0, ![]⟩
abbrev S64x1 : Shape := ⟨2, ![64, 1]⟩
abbrev S8192x64 : Shape := ⟨2, ![8192, 64]⟩
abbrev S1x64 : Shape := ⟨2, ![1, 64]⟩
abbrev S8192x2112 : Shape := ⟨2, ![8192, 2112]⟩
abbrev S8192x2176 : Shape := ⟨2, ![8192, 2176]⟩
abbrev S2048x2176 : Shape := ⟨2, ![2048, 2176]⟩
abbrev S400000x1 : Shape := ⟨2, ![400000, 1]⟩
abbrev S400000x2 : Shape := ⟨2, ![400000, 2]⟩
abbrev S2048 : Shape := ⟨1, ![2048]⟩
abbrev S1024x1 : Shape := ⟨2, ![1024, 1]⟩
abbrev S2176x2048 : Shape := ⟨2, ![2176, 2048]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S400000, .f32⟩
  | .hbm, ⟨2, _⟩ => ⟨S400000, .i32⟩
  | .hbm, ⟨3, _⟩ => ⟨S400000, .i32⟩
  | .hbm, ⟨4, _⟩ => ⟨S1024, .f32⟩
  | .hbm, ⟨5, _⟩ => ⟨S1024, .i32⟩
  | .hbm, ⟨6, _⟩ => ⟨S64, .f32⟩
  | .hbm, ⟨7, _⟩ => ⟨S64, .i32⟩
  | .hbm, ⟨8, _⟩ => ⟨S64, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x2112, .f32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S8192x64, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S8192x2176, .f32⟩
  | .hbm, ⟨36, _⟩ => ⟨S_, .f32⟩
  | .hbm, ⟨37, _⟩ => ⟨S2048x2176, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x1, .i32⟩
  | .hbm, ⟨54, _⟩ => ⟨S400000x2, .i32⟩
  | .hbm, ⟨55, _⟩ => ⟨S2048x2176, .f32⟩
  | .hbm, ⟨56, _⟩ => ⟨S_, .f32⟩
  | .hbm, ⟨57, _⟩ => ⟨S2048, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S2048, .f32⟩
  | .hbm, ⟨67, _⟩ => ⟨S2176x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  concatenates_S8192x2048_S8192x64_S8192x2112_d1 : Shape.Concatenates [S8192x2048, S8192x64] S8192x2112 1
  concatenates_S8192x2112_S8192x64_S8192x2176_d1 : Shape.Concatenates [S8192x2112, S8192x64] S8192x2176 1
  bcast_S_S2048x2176 : S_.BroadcastsInDim S2048x2176 (![] : Fin 0 → Fin S2048x2176.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S_S2048 : S_.BroadcastsInDim S2048 (![] : Fin 0 → Fin S2048.rank)
  bcast_S_S1024 : S_.BroadcastsInDim S1024 (![] : Fin 0 → Fin S1024.rank)
  bcast_S1024_S1024x1_0 : S1024.BroadcastsInDim S1024x1 (![0] : Fin 1 → Fin S1024x1.rank)
  transposes_S2048x2176_S2176x2048_1_0 : S2048x2176.Transposes [1, 0] S2176x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  gather_S8192x2048_S64x1_S8192x64_0_1_n_n_1_1_81921_wf : GatherDims.WF S8192x2048 S64x1 S8192x64 [0] [1] [] [1] [] 1 ![8192, 1]
  gather_S8192x2112_S64x1_S8192x64_0_1_n_n_1_1_81921_wf : GatherDims.WF S8192x2112 S64x1 S8192x64 [0] [1] [] [1] [] 1 ![8192, 1]
  scatter_S2048x2176_S400000x2_S400000_n_01_01_1_wf : ScatterDims.WF S2048x2176 S400000x2 S400000 [] [0, 1] [0, 1] 1
  scatter_S2048_S1024x1_S1024_n_0_0_1_wf : ScatterDims.WF S2048 S1024x1 S1024 [] [0] [0] 1
  dot_S8192x2176_S2176x2048_S8192x2048_1_0_0_1_n_n_wf : DotDims.WF S8192x2176 S2176x2048 S8192x2048 [1] [0] [0] [1] [] []

variable [Facts₀]

def gather_S8192x2048_S64x1_S8192x64_0_1_n_n_1_1_81921 : GatherDims S8192x2048 S64x1 S8192x64 where
  offsetDims := [0]
  collapsedSliceDims := [1]
  operandBatchingDims := []
  startIndicesBatchingDims := []
  startIndexMap := [1]
  indexVectorDim := 1
  sliceSizes := ![8192, 1]
  wf := gather_S8192x2048_S64x1_S8192x64_0_1_n_n_1_1_81921_wf
def gather_S8192x2112_S64x1_S8192x64_0_1_n_n_1_1_81921 : GatherDims S8192x2112 S64x1 S8192x64 where
  offsetDims := [0]
  collapsedSliceDims := [1]
  operandBatchingDims := []
  startIndicesBatchingDims := []
  startIndexMap := [1]
  indexVectorDim := 1
  sliceSizes := ![8192, 1]
  wf := gather_S8192x2112_S64x1_S8192x64_0_1_n_n_1_1_81921_wf
def scatter_S2048x2176_S400000x2_S400000_n_01_01_1 : ScatterDims S2048x2176 S400000x2 S400000 where
  updateWindowDims := []
  insertedWindowDims := [0, 1]
  scatterDimsToOperandDims := [0, 1]
  indexVectorDim := 1
  wf := scatter_S2048x2176_S400000x2_S400000_n_01_01_1_wf
def scatter_S2048_S1024x1_S1024_n_0_0_1 : ScatterDims S2048 S1024x1 S1024 where
  updateWindowDims := []
  insertedWindowDims := [0]
  scatterDimsToOperandDims := [0]
  indexVectorDim := 1
  wf := scatter_S2048_S1024x1_S1024_n_0_0_1_wf
def dot_S8192x2176_S2176x2048_S8192x2048_1_0_0_1_n_n : DotDims S8192x2176 S2176x2048 S8192x2048 where
  lhsContracting := [1]
  rhsContracting := [0]
  lhsNonContracting := [0]
  rhsNonContracting := [1]
  lhsBatch := []
  rhsBatch := []
  wf := dot_S8192x2176_S2176x2048_S8192x2048_1_0_0_1_n_n_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«112818_j75720273428633_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«112818_j75720273428633_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«112818_j75720273428633_1_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.KernelBody.lean ====
/-
  What one grid point's body leaves in its output block, as one function of the three blocks it loads: the
  product of the [512, 2176] block of expanded inputs with the resident [2176, 2048] weights, accumulated into
  zero, plus the one-row bias laid along every row. On the extended reals this is the plain affine layer
  `P · W + b` on 512 rows; the casts of a block to its own shape are the identity.
-/
import proofs.«112818_j75720273428633_1_alg».proof.Proof.Gen.KernelIdeal.Frame
import proofs.«112818_j75720273428633_1_alg».proof.Proof.LibTransposed

noncomputable section

namespace Cert.KernelIdeal.BodyValue

open Cert.KernelIdeal Cert.KernelIdeal.Gen Idealize.ShloMosaic Idealize.ShloMosaic.ValueIdx
open Cert.LayoutLib Cert.DenseLib Cert.RowBlocks

theorem zero_offsets : (![0, 0] : Fin 2 → Nat) = fun _ => 0 := funext fun a => by fin_cases a <;> rfl

/-- The body's arithmetic on its loaded blocks: the matrix product into a zero accumulator, plus the bias row
    broadcast down the 512 rows, is the affine layer of those blocks. -/
theorem payload_eq (x0 : FVec Ideal S512x2176 .bf16) (x1 : FVec Ideal S2176x2048 .bf16) (x2 : FVec Ideal S1x2048 .f32) :
    k0_pay1 (F := Ideal) x0 x1 x2 = affine x0 x1 (fun q => x2 (ix2 (0 : Fin 1) q)) := by
  unfold k0_pay1
  simp only [shapeCast_self]
  rw [matmul_eq_mm dot_S512x2176_S2176x2048_S512x2048_1_0_0_1_n_n rfl, broadcastTo_eq_rows]
  rfl

/-- The output block after the body: its one store covers the block, and each load reads a whole block. -/
theorem out_eq (x0 : FVec Ideal S512x2176 .bf16) (x1 : FVec Ideal S2176x2048 .bf16) (x2 : FVec Ideal S1x2048 .f32) :
    out0_3 (F := Ideal) x0 x1 x2 = affine x0 x1 (fun q => x2 (ix2 (0 : Fin 1) q)) := by
  unfold out0_3
  rw [View.canon_unit_zero zero_offsets]
  simp only [View.ld_unit_zero (S := S512x2176) zero_offsets, View.ld_unit_zero (S := S2176x2048) zero_offsets,
    View.ld_unit_zero (S := S1x2048) zero_offsets]
  exact payload_eq x0 x1 x2

end Cert.KernelIdeal.BodyValue

end
-- ==== Proof.KernelValue.lean ====
/-
  From blocks to the array. The kernel's grid has 16 points; point `t` loads rows `512 t … 512 t + 511` of the
  expanded inputs, the whole weight array and the whole one-row bias, and writes rows `512 t … 512 t + 511` of the
  result. A row of the affine layer `P · W + b` depends on the same row of `P` only, so the block a point writes
  is that block of rows of ONE function of the three staged arrays: the affine layer on all 8192 rows. The 16
  blocks tile the result, so after the run the result array is that function.
-/
import proofs.«112818_j75720273428633_1_alg».proof.Proof.Gen.KernelIdeal.Value
import proofs.«112818_j75720273428633_1_alg».proof.Proof.KernelBody

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.LayoutLib Cert.DenseLib Cert.RowBlocks Cert.TransposedLib

variable (m : (ℓ : Loc nD τ sig) → Buf (Elt Ideal) ℓ) (ρ : Dev nD → PrngReg)

/-- The affine layer of the three arrays the region stages, on all 8192 rows. -/
def layer (c : Dev nD) : S8192x2048.Idx → EReal :=
  affine (V m c main_v45 : S8192x2176.Idx → EReal) (V m c main_v47 : S2176x2048.Idx → EReal)
    (fun q => (V m c main_v48 : S1x2048.Idx → EReal) (ix2 (0 : Fin 1) q))

/-- The printed index maps over the grid: the inputs' and the result's blocks move down the rows with the point,
    the weights' and the bias's stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the expanded inputs is rows `512 t …` of the staged array. -/
theorem read_inputs (c : Dev nD) (t : Fin cfg0.N) (x : S512x2176.Idx) (k : S8192x2176.Idx)
    (h0 : (k 0).val = t.val * 512 + (x 0).val) (h1 : (k 1).val = (x 1).val) :
    (iblk m c 0 t : FVec Ideal S512x2176 .bf16) x = (V m c main_v45 : S8192x2176.Idx → EReal) k := by
  obtain ⟨e0, e1, -⟩ := index_facts t
  unfold iblk
  rw [View.read_apply]
  show (V m c main_v45 : S8192x2176.Idx → EReal) _ = (V m c main_v45 : S8192x2176.Idx → EReal) k
  refine congrArg (V m c main_v45 : S8192x2176.Idx → EReal) (funext fun a => Fin.ext ?_)
  match a with
  | ⟨0, _⟩ => show win0_0.index t (0 : Fin 2) * 512 + 1 * (x 0).val = (k 0).val; rw [e0, h0]; omega
  | ⟨1, _⟩ => show win0_0.index t (1 : Fin 2) * 2176 + 1 * (x 1).val = (k 1).val; rw [e1, h1]; omega

/-- Every point's block of the weights is the whole staged array. -/
theorem read_weights (c : Dev nD) (t : Fin cfg0.N) (y : S2176x2048.Idx) :
    (iblk m c 1 t : FVec Ideal S2176x2048 .bf16) y = (V m c main_v47 : S2176x2048.Idx → EReal) y := by
  obtain ⟨-, -, e2, e3, -⟩ := index_facts t
  unfold iblk
  rw [View.read_apply]
  show (V m c main_v47 : S2176x2048.Idx → EReal) _ = (V m c main_v47 : S2176x2048.Idx → EReal) y
  refine congrArg (V m c main_v47 : S2176x2048.Idx → EReal) (funext fun a => Fin.ext ?_)
  match a with
  | ⟨0, _⟩ => show win0_1.index t (0 : Fin 2) * 2176 + 1 * (y 0).val = (y 0).val; rw [e2]; omega
  | ⟨1, _⟩ => show win0_1.index t (1 : Fin 2) * 2048 + 1 * (y 1).val = (y 1).val; rw [e3]; omega

/-- Every point's block of the bias is the whole staged row. -/
theorem read_bias (c : Dev nD) (t : Fin cfg0.N) (y : S1x2048.Idx) :
    (iblk m c 2 t : FVec Ideal S1x2048 .f32) y = (V m c main_v48 : S1x2048.Idx → EReal) y := by
  obtain ⟨-, -, -, -, e4, e5, -⟩ := index_facts t
  unfold iblk
  rw [View.read_apply]
  show (V m c main_v48 : S1x2048.Idx → EReal) _ = (V m c main_v48 : S1x2048.Idx → EReal) y
  refine congrArg (V m c main_v48 : S1x2048.Idx → EReal) (funext fun a => Fin.ext ?_)
  match a with
  | ⟨0, _⟩ => show win0_2.index t (0 : Fin 2) * 1 + 1 * (y 0).val = (y 0).val; rw [e4]; omega
  | ⟨1, _⟩ => show win0_2.index t (1 : Fin 2) * 2048 + 1 * (y 1).val = (y 1).val; rw [e5]; omega

/-- Where an entry of point `t`'s result block sits in the result array. -/
theorem result_emb (t : Fin cfg0.N) (j : S512x2048.Idx) :
    ((((cfg0.win 3).blk t).view.emb j) 0).val = t.val * 512 + (j 0).val
      ∧ ((((cfg0.win 3).blk t).view.emb j) 1).val = (j 1).val := by
  obtain ⟨-, -, -, -, -, -, e6, e7⟩ := index_facts t
  constructor
  · show win0_3.index t (0 : Fin 2) * 512 + 1 * (j 0).val = _; rw [e6]; omega
  · show win0_3.index t (1 : Fin 2) * 2048 + 1 * (j 1).val = _; rw [e7]; omega

/-- What point `t` writes back is block `t` of the layer on all rows. -/
theorem flushed_eq (c : Dev nD) (t : Fin cfg0.N) :
    (dats m 0 c).flushed 3 t = ((cfg0.win 3).blk t).view.read (Elt Ideal) (layer m c) := by
  show (cfg0.win 3).cut (grid0.coords t) ((dats m 0 c).after 3 t) = _
  rw [after0_3, BodyValue.out_eq]
  funext j
  show affine (iblk m c 0 t : FVec Ideal S512x2176 .bf16) (iblk m c 1 t : FVec Ideal S2176x2048 .bf16)
      (fun q => (iblk m c 2 t : FVec Ideal S1x2048 .f32) (ix2 (0 : Fin 1) q)) j
    = layer m c (((cfg0.win 3).blk t).view.emb j)
  obtain ⟨r0, r1⟩ := result_emb t j
  exact affine_eq_of_row (M := 8192) (M' := 512) (K := 2176) (N := 2048)
    (iblk m c 0 t : FVec Ideal S512x2176 .bf16) (iblk m c 1 t : FVec Ideal S2176x2048 .bf16)
    (fun q => (iblk m c 2 t : FVec Ideal S1x2048 .f32) (ix2 (0 : Fin 1) q))
    (V m c main_v45 : S8192x2176.Idx → EReal) (V m c main_v47 : S2176x2048.Idx → EReal)
    (fun q => (V m c main_v48 : S1x2048.Idx → EReal) (ix2 (0 : Fin 1) q))
    j (((cfg0.win 3).blk t).view.emb j)
    (funext fun q => read_bias m c t (ix2 (0 : Fin 1) q))
    (funext fun y => read_weights m c t y)
    r1.symm
    (fun k => read_inputs m c t (ix2 (j 0) k) (ix2 ((((cfg0.win 3).blk t).view.emb j) 0) k) r0 rfl)

/-- An index of the result is in point `t`'s block iff each coordinate is in the block's range on its axis. -/
theorem mem_block (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v49).slice (win0_3.rect t)).set ↔ _
  rw [View.set_slice_whole, Rect.mem_set_unit]
  exact Iff.rfl

/-- Row `r` of the result is written by point `r / 512`. -/
theorem covered (i : S8192x2048.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 2048 := (i 1).isLt
  obtain ⟨t, ht⟩ : ∃ t : Fin cfg0.N, t.val = (i 0).val / 512 := ⟨⟨(i 0).val / 512, by rw [hN]; omega⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e6]; omega
  | ⟨1, _⟩ =>
    show win0_3.index t (1 : Fin 2) * 2048 ≤ (i 1).val ∧ (i 1).val < win0_3.index t (1 : Fin 2) * 2048 + 2048
    rw [e7]; omega

/-- The result array after the run is the layer on all rows. -/
theorem final (c : Dev nD) : (dats m 0 c).arrAt 3 cfg0.N = layer m c :=
  (dats m 0 c).arrAt_eq_of_cover 3 (layer m c) (fun t _ => flushed_eq m c t) covered

/-- The kernel's run, with the result array named as one function of the staged arrays. -/
theorem run : θ_run defs (onTc (τ := τ) (main (F := Ideal))) ⟨m, fun _ => 0, ρ⟩ fun r => ∀ c : Dev nD,
      r.2.mem ((c : Thread nD τ).loc main_v49) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.ArrayValue

end
-- ==== Proof.Stages.lean ====
/-
  The three arrays both programs build first, each as one function of the arguments it depends on, in the host
  operations' own spelling. `expand1` appends to the input's 2048 columns 64 more, column `j` being column
  `parents₀ j` of the input scaled by `vals₀ j` (a negative column number counts from the end); `expand2` appends
  64 more to those 2112 columns in the same way. `weights` is the [2048, 2176] array of zeros with entry `k` of the
  sparse values added at (row k, column k) of the two index vectors; `bias` the [2048] vector of zeros with the
  sparse bias values added at their indices. The proof never opens a gather or a scatter: it only needs that both
  programs apply the same ones.
-/
import proofs.«112818_j75720273428633_1_alg».proof.Proof.Gen.ReferenceIdeal

noncomputable section

namespace Cert.ReferenceIdeal.Stages

open Cert.ReferenceIdeal Cert.ReferenceIdeal.Gen Idealize.ShloMosaic

variable {F : FTy → Type} [FloatOps F]

/-- 64 column numbers, a negative one counted from the end of `n` columns, as a [64, 1] index array. -/
def columns (n : BitVec 32) (p : (⟨S64, .i32⟩ : BufTy).Contents (Elt F)) : (⟨S64x1, .i32⟩ : BufTy).Contents (Elt F) :=
  broadcastInDim S64x1 ![0] bcast_S64_S64x1_0 (select (cmpi .slt p (broadcastInDim S64 ![] bcast_S_S64 (constantI S_ 32 0#32))) (addi p (broadcastInDim S64 ![] bcast_S_S64 (constantI S_ 32 n))) p)

/-- 64 scales laid along every one of the 8192 rows. -/
def scales (v : (⟨S64, .f32⟩ : BufTy).Contents (Elt F)) : (⟨S8192x64, .f32⟩ : BufTy).Contents (Elt F) :=
  broadcastInDim S8192x64 ![0, 1] bcast_S1x64_S8192x64_0_1 (broadcastInDim S1x64 ![1] bcast_S64_S1x64_1 v)

/-- The input with its first 64 derived columns appended: [8192, 2112]. -/
def expand1 (x : (⟨S8192x2048, .f32⟩ : BufTy).Contents (Elt F)) (v : (⟨S64, .f32⟩ : BufTy).Contents (Elt F)) (p : (⟨S64, .i32⟩ : BufTy).Contents (Elt F)) : (⟨S8192x2112, .f32⟩ : BufTy).Contents (Elt F) :=
  concatenate S8192x2112 1 [⟨S8192x2048, x⟩, ⟨S8192x64, mulf (Host.gather gather_S8192x2048_S64x1_S8192x64_0_1_n_n_1_1_81921 x (columns 2048#32 p)) (scales v)⟩] concatenates_S8192x2048_S8192x64_S8192x2112_d1

/-- That array with 64 more derived columns appended: [8192, 2176]. -/
def expand2 (x : (⟨S8192x2112, .f32⟩ : BufTy).Contents (Elt F)) (v : (⟨S64, .f32⟩ : BufTy).Contents (Elt F)) (p : (⟨S64, .i32⟩ : BufTy).Contents (Elt F)) : (⟨S8192x2176, .f32⟩ : BufTy).Contents (Elt F) :=
  concatenate S8192x2176 1 [⟨S8192x2112, x⟩, ⟨S8192x64, mulf (Host.gather gather_S8192x2112_S64x1_S8192x64_0_1_n_n_1_1_81921 x (columns 2112#32 p)) (scales v)⟩] concatenates_S8192x2112_S8192x64_S8192x2176_d1

/-- 400000 row or column numbers, a negative one counted from the end of `n`, as a [400000, 1] index array. -/
def entries (n : BitVec 32) (p : (⟨S400000, .i32⟩ : BufTy).Contents (Elt F)) : (⟨S400000x1, .i32⟩ : BufTy).Contents (Elt F) :=
  broadcastInDim S400000x1 ![0] bcast_S400000_S400000x1_0 (select (cmpi .slt p (broadcastInDim S400000 ![] bcast_S_S400000 (constantI S_ 32 0#32))) (addi p (broadcastInDim S400000 ![] bcast_S_S400000 (constantI S_ 32 n))) p)

/-- The dense weights, one row per output feature: [2048, 2176]. -/
def weights (w : (⟨S400000, .f32⟩ : BufTy).Contents (Elt F)) (r c : (⟨S400000, .i32⟩ : BufTy).Contents (Elt F)) : (⟨S2048x2176, .f32⟩ : BufTy).Contents (Elt F) :=
  Host.scatterAdd scatter_S2048x2176_S400000x2_S400000_n_01_01_1 (broadcastInDim S2048x2176 ![] bcast_S_S2048x2176 (constant S_ .f32 0x00000000#32)) (concatenate S400000x2 1 [⟨S400000x1, entries 2048#32 r⟩, ⟨S400000x1, entries 2176#32 c⟩] concatenates_S400000x1_S400000x1_S400000x2_d1) w

/-- The dense bias: [2048]. -/
def bias (b : (⟨S1024, .f32⟩ : BufTy).Contents (Elt F)) (p : (⟨S1024, .i32⟩ : BufTy).Contents (Elt F)) : (⟨S2048, .f32⟩ : BufTy).Contents (Elt F) :=
  Host.scatterAdd scatter_S2048_S1024x1_S1024_n_0_0_1 (broadcastInDim S2048 ![] bcast_S_S2048 (constant S_ .f32 0x00000000#32)) (broadcastInDim S1024x1 ![0] bcast_S1024_S1024x1_0 (select (cmpi .slt p (broadcastInDim S1024 ![] bcast_S_S1024 (constantI S_ 32 0#32))) (addi p (broadcastInDim S1024 ![] bcast_S_S1024 (constantI S_ 32 2048#32))) p)) b

end Cert.ReferenceIdeal.Stages

end
-- ==== Proof.KernelHost.lean ====
/-
  What the kernel's one region finds in the three arrays it stages. The 61 host operations before the region begin
  with the reference's own first 57 — the same four stretches, each leaving one array: the input with 64 derived
  columns appended, that with 64 more, the dense weights, the dense bias — and end with four layout steps: the
  expanded inputs narrowed to bf16, the weights transposed and then narrowed, the bias recast as one row. The line is
  cut at the same places as the reference's, each stretch run from any contents and its array named by the SAME
  function (Proof/Stages.lean); so each staged array is a layout step of the reference's array of the same arguments.
-/
import proofs.«112818_j75720273428633_1_alg».proof.Proof.Gen.KernelIdeal.Frame
import proofs.«112818_j75720273428633_1_alg».proof.Proof.Stages
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Operations 1 to 13 of the line. -/
def lineA : List (HloOp τ sig (Elt F)) :=
  [ nullary main_c (constantI S_ 32 0#32),
    unary main_c main_v0 (broadcastInDim S64 ![] bcast_S_S64 : (⟨S_, .i32⟩ : BufTy).Contents (Elt F) → (⟨S64, .i32⟩ : BufTy).Contents (Elt F)),
    binary main_arg7 main_v0 main_v1 (cmpi .slt : (⟨S64, .i32⟩ : BufTy).Contents (Elt F) → (⟨S64, .i32⟩ : BufTy).Contents (Elt F) → (⟨S64, .i1⟩ : BufTy).Contents (Elt F)),
    nullary main_c_0 (constantI S_ 32 2048#32),
    unary main_c_0 main_v2 (broadcastInDim S64 ![] bcast_S_S64 : (⟨S_, .i32⟩ : BufTy).Contents (Elt F) → (⟨S64, .i32⟩ : BufTy).Contents (Elt F)),
    binary main_arg7 main_v2 main_v3 (addi : (⟨S64, .i32⟩ : BufTy).Contents (Elt F) → (⟨S64, .i32⟩ : BufTy).Contents (Elt F) → (⟨S64, .i32⟩ : BufTy).Contents (Elt F)),
    ternary main_v1 main_v3 main_arg7 main_v4 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v4 main_v5 (broadcastInDim S64x1 ![0] bcast_S64_S64x1_0 : (⟨S64, .i32⟩ : BufTy).Contents (Elt F) → (⟨S64x1, .i32⟩ : BufTy).Contents (Elt F)),
    binary main_arg0 main_v5 main_v6 ((fun x i => Host.gather gather_S8192x2048_S64x1_S8192x64_0_1_n_n_1_1_81921 x i) : (⟨S8192x2048, .f32⟩ : BufTy).Contents (Elt F) → (⟨S64x1, .i32⟩ : BufTy).Contents (Elt F) → (⟨S8192x64, .f32⟩ : BufTy).Contents (Elt F)),
    unary main_arg6 main_v7 (broadcastInDim S1x64 ![1] bcast_S64_S1x64_1 : (⟨S64, .f32⟩ : BufTy).Contents (Elt F) → (⟨S1x64, .f32⟩ : BufTy).Contents (Elt F)),
    unary main_v7 main_v8 (broadcastInDim S8192x64 ![0, 1] bcast_S1x64_S8192x64_0_1 : (⟨S1x64, .f32⟩ : BufTy).Contents (Elt F) → (⟨S8192x64, .f32⟩ : BufTy).Contents (Elt F)),
    binary main_v6 main_v8 main_v9 (mulf : (⟨S8192x64, .f32⟩ : BufTy).Contents (Elt F) → (⟨S8192x64, .f32⟩ : BufTy).Contents (Elt F) → (⟨S8192x64, .f32⟩ : BufTy).Contents (Elt F)),
    binary main_arg0 main_v9 main_v10 ((fun a b => concatenate S8192x2112 1 [⟨S8192x2048, a⟩, ⟨S8192x64, b⟩] concatenates_S8192x2048_S8192x64_S8192x2112_d1) : (⟨S8192x2048, .f32⟩ : BufTy).Contents (Elt F) → (⟨S8192x64, .f32⟩ : BufTy).Contents (Elt F) → (⟨S8192x2112, .f32⟩ : BufTy).Contents (Elt F)) ]

/-- Operations 14 to 26 of the line. -/
def lineB : List (HloOp τ sig (Elt F)) :=
  [ nullary main_c_1 (constantI S_ 32 0#32),
    unary main_c_1 main_v11 (broadcastInDim S64 ![] bcast_S_S64 : (⟨S_, .i32⟩ : BufTy).Contents (Elt F) → (⟨S64, .i32⟩ : BufTy).Contents (Elt F)),
    binary main_arg9 main_v11 main_v12 (cmpi .slt : (⟨S64, .i32⟩ : BufTy).Contents (Elt F) → (⟨S64, .i32⟩ : BufTy).Contents (Elt F) → (⟨S64, .i1⟩ : BufTy).Contents (Elt F)),
    nullary main_c_2 (constantI S_ 32 2112#32),
    unary main_c_2 main_v13 (broadcastInDim S64 ![] bcast_S_S64 : (⟨S_, .i32⟩ : BufTy).Contents (Elt F) → (⟨S64, .i32⟩ : BufTy).Contents (Elt F)),
    binary main_arg9 main_v13 main_v14 (addi : (⟨S64, .i32⟩ : BufTy).Contents (Elt F) → (⟨S64, .i32⟩ : BufTy).Contents (Elt F) → (⟨S64, .i32⟩ : BufTy).Contents (Elt F)),
    ternary main_v12 main_v14 main_arg9 main_v15 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v15 main_v16 (broadcastInDim S64x1 ![0] bcast_S64_S64x1_0 : (⟨S64, .i32⟩ : BufTy).Contents (Elt F) → (⟨S64x1, .i32⟩ : BufTy).Contents (Elt F)),
    binary main_v10 main_v16 main_v17 ((fun x i => Host.gather gather_S8192x2112_S64x1_S8192x64_0_1_n_n_1_1_81921 x i) : (⟨S8192x2112, .f32⟩ : BufTy).Contents (Elt F) → (⟨S64x1, .i32⟩ : BufTy).Contents (Elt F) → (⟨S8192x64, .f32⟩ : BufTy).Contents (Elt F)),
    unary main_arg8 main_v18 (broadcastInDim S1x64 ![1] bcast_S64_S1x64_1 : (⟨S64, .f32⟩ : BufTy).Contents (Elt F) → (⟨S1x64, .f32⟩ : BufTy).Contents (Elt F)),
    unary main_v18 main_v19 (broadcastInDim S8192x64 ![0, 1] bcast_S1x64_S8192x64_0_1 : (⟨S1x64, .f32⟩ : BufTy).Contents (Elt F) → (⟨S8192x64, .f32⟩ : BufTy).Contents (Elt F)),
    binary main_v17 main_v19 main_v20 (mulf : (⟨S8192x64, .f32⟩ : BufTy).Contents (Elt F) → (⟨S8192x64, .f32⟩ : BufTy).Contents (Elt F) → (⟨S8192x64, .f32⟩ : BufTy).Contents (Elt F)),
    binary main_v10 main_v20 main_v21 ((fun a b => concatenate S8192x2176 1 [⟨S8192x2112, a⟩, ⟨S8192x64, b⟩] concatenates_S8192x2112_S8192x64_S8192x2176_d1) : (⟨S8192x2112, .f32⟩ : BufTy).Contents (Elt F) → (⟨S8192x64, .f32⟩ : BufTy).Contents (Elt F) → (⟨S8192x2176, .f32⟩ : BufTy).Contents (Elt F)) ]

/-- Operations 27 to 46 of the line. -/
def lineC : List (HloOp τ sig (Elt F)) :=
  [ nullary main_cst (constant S_ .f32 0x00000000#32),
    unary main_cst main_v22 (broadcastInDim S2048x2176 ![] bcast_S_S2048x2176 : (⟨S_, .f32⟩ : BufTy).Contents (Elt F) → (⟨S2048x2176, .f32⟩ : BufTy).Contents (Elt F)),
    nullary main_c_3 (constantI S_ 32 0#32),
    unary main_c_3 main_v23 (broadcastInDim S400000 ![] bcast_S_S400000 : (⟨S_, .i32⟩ : BufTy).Contents (Elt F) → (⟨S400000, .i32⟩ : BufTy).Contents (Elt F)),
    binary main_arg2 main_v23 main_v24 (cmpi .slt : (⟨S400000, .i32⟩ : BufTy).Contents (Elt F) → (⟨S400000, .i32⟩ : BufTy).Contents (Elt F) → (⟨S400000, .i1⟩ : BufTy).Contents (Elt F)),
    nullary main_c_4 (constantI S_ 32 2048#32),
    unary main_c_4 main_v25 (broadcastInDim S400000 ![] bcast_S_S400000 : (⟨S_, .i32⟩ : BufTy).Contents (Elt F) → (⟨S400000, .i32⟩ : BufTy).Contents (Elt F)),
    binary main_arg2 main_v25 main_v26 (addi : (⟨S400000, .i32⟩ : BufTy).Contents (Elt F) → (⟨S400000, .i32⟩ : BufTy).Contents (Elt F) → (⟨S400000, .i32⟩ : BufTy).Contents (Elt F)),
    ternary main_v24 main_v26 main_arg2 main_v27 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    nullary main_c_5 (constantI S_ 32 0#32),
    unary main_c_5 main_v28 (broadcastInDim S400000 ![] bcast_S_S400000 : (⟨S_, .i32⟩ : BufTy).Contents (Elt F) → (⟨S400000, .i32⟩ : BufTy).Contents (Elt F)),
    binary main_arg3 main_v28 main_v29 (cmpi .slt : (⟨S400000, .i32⟩ : BufTy).Contents (Elt F) → (⟨S400000, .i32⟩ : BufTy).Contents (Elt F) → (⟨S400000, .i1⟩ : BufTy).Contents (Elt F)),
    nullary main_c_6 (constantI S_ 32 2176#32),
    unary main_c_6 main_v30 (broadcastInDim S400000 ![] bcast_S_S400000 : (⟨S_, .i32⟩ : BufTy).Contents (Elt F) → (⟨S400000, .i32⟩ : BufTy).Contents (Elt F)),
    binary main_arg3 main_v30 main_v31 (addi : (⟨S400000, .i32⟩ : BufTy).Contents (Elt F) → (⟨S400000, .i32⟩ : BufTy).Contents (Elt F) → (⟨S400000, .i32⟩ : BufTy).Contents (Elt F)),
    ternary main_v29 main_v31 main_arg3 main_v32 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v27 main_v33 (broadcastInDim S400000x1 ![0] bcast_S400000_S400000x1_0 : (⟨S400000, .i32⟩ : BufTy).Contents (Elt F) → (⟨S400000x1, .i32⟩ : BufTy).Contents (Elt F)),
    unary main_v32 main_v34 (broadcastInDim S400000x1 ![0] bcast_S400000_S400000x1_0 : (⟨S400000, .i32⟩ : BufTy).Contents (Elt F) → (⟨S400000x1, .i32⟩ : BufTy).Contents (Elt F)),
    binary main_v33 main_v34 main_v35 ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F)),
    ternary main_v22 main_v35 main_arg1 main_v36 ((fun x i u => Host.scatterAdd scatter_S2048x2176_S400000x2_S400000_n_01_01_1 x i u) : (⟨S2048x2176, .f32⟩ : BufTy).Contents (Elt F) → (⟨S400000x2, .i32⟩ : BufTy).Contents (Elt F) → (⟨S400000, .f32⟩ : BufTy).Contents (Elt F) → (⟨S2048x2176, .f32⟩ : BufTy).Contents (Elt F)) ]

/-- Operations 47 to 57 of the line. -/
def lineD : List (HloOp τ sig (Elt F)) :=
  [ nullary main_cst_7 (constant S_ .f32 0x00000000#32),
    unary main_cst_7 main_v37 (broadcastInDim S2048 ![] bcast_S_S2048 : (⟨S_, .f32⟩ : BufTy).Contents (Elt F) → (⟨S2048, .f32⟩ : BufTy).Contents (Elt F)),
    nullary main_c_8 (constantI S_ 32 0#32),
    unary main_c_8 main_v38 (broadcastInDim S1024 ![] bcast_S_S1024 : (⟨S_, .i32⟩ : BufTy).Contents (Elt F) → (⟨S1024, .i32⟩ : BufTy).Contents (Elt F)),
    binary main_arg5 main_v38 main_v39 (cmpi .slt : (⟨S1024, .i32⟩ : BufTy).Contents (Elt F) → (⟨S1024, .i32⟩ : BufTy).Contents (Elt F) → (⟨S1024, .i1⟩ : BufTy).Contents (Elt F)),
    nullary main_c_9 (constantI S_ 32 2048#32),
    unary main_c_9 main_v40 (broadcastInDim S1024 ![] bcast_S_S1024 : (⟨S_, .i32⟩ : BufTy).Contents (Elt F) → (⟨S1024, .i32⟩ : BufTy).Contents (Elt F)),
    binary main_arg5 main_v40 main_v41 (addi : (⟨S1024, .i32⟩ : BufTy).Contents (Elt F) → (⟨S1024, .i32⟩ : BufTy).Contents (Elt F) → (⟨S1024, .i32⟩ : BufTy).Contents (Elt F)),
    ternary main_v39 main_v41 main_arg5 main_v42 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v42 main_v43 (broadcastInDim S1024x1 ![0] bcast_S1024_S1024x1_0 : (⟨S1024, .i32⟩ : BufTy).Contents (Elt F) → (⟨S1024x1, .i32⟩ : BufTy).Contents (Elt F)),
    ternary main_v37 main_v43 main_arg4 main_v44 ((fun x i u => Host.scatterAdd scatter_S2048_S1024x1_S1024_n_0_0_1 x i u) : (⟨S2048, .f32⟩ : BufTy).Contents (Elt F) → (⟨S1024x1, .i32⟩ : BufTy).Contents (Elt F) → (⟨S1024, .f32⟩ : BufTy).Contents (Elt F) → (⟨S2048, .f32⟩ : BufTy).Contents (Elt F)) ]

/-- Operations 58 to 61 of the line. -/
def lineE : List (HloOp τ sig (Elt F)) :=
  [ unary main_v21 main_v45 ((truncf .bf16 · bitsLt_bf16_f32) : (⟨S8192x2176, .f32⟩ : BufTy).Contents (Elt F) → (⟨S8192x2176, .bf16⟩ : BufTy).Contents (Elt F)),
    unary main_v36 main_v46 ((transpose S2176x2048 [1, 0] · transposes_S2048x2176_S2176x2048_1_0) : (⟨S2048x2176, .f32⟩ : BufTy).Contents (Elt F) → (⟨S2176x2048, .f32⟩ : BufTy).Contents (Elt F)),
    unary main_v46 main_v47 ((truncf .bf16 · bitsLt_bf16_f32) : (⟨S2176x2048, .f32⟩ : BufTy).Contents (Elt F) → (⟨S2176x2048, .bf16⟩ : BufTy).Contents (Elt F)),
    reshape main_v44 main_v48 rfl shapeCasts_S2048_S1x2048 ]

/-- The host operations before the region are the five stretches laid end to end. -/
theorem hostOps0_split : (hostOps0 : List (HloOp τ sig (Elt F))) = lineA ++ (lineB ++ (lineC ++ (lineD ++ lineE))) := rfl

/-- No operation of a literal line writes a given buffer: each operation's one written buffer is another one. -/
local macro "untouched" L:ident : tactic => `(tactic| (
  refine List.forall_iff_forall_mem.mp ?_
  simp only [$L:ident, List.Forall, nullary_writes, unary_writes, binary_writes, ternary_writes, reshape_writes, Finset.mem_singleton]
  repeat' apply And.intro
  all_goals exact devRef_ne_of_ne (by decide)))

theorem keepA_arg8 (G : Valuation τ sig (Elt F)) : after lineA G (Proc.devRef .tc main_arg8) = G (Proc.devRef .tc main_arg8) :=
  after_of_forall_not_mem (b := (Proc.devRef .tc main_arg8)) _ _ (by untouched lineA)
theorem keepA_arg9 (G : Valuation τ sig (Elt F)) : after lineA G (Proc.devRef .tc main_arg9) = G (Proc.devRef .tc main_arg9) :=
  after_of_forall_not_mem (b := (Proc.devRef .tc main_arg9)) _ _ (by untouched lineA)
theorem keepA_arg1 (G : Valuation τ sig (Elt F)) : after lineA G (Proc.devRef .tc main_arg1) = G (Proc.devRef .tc main_arg1) :=
  after_of_forall_not_mem (b := (Proc.devRef .tc main_arg1)) _ _ (by untouched lineA)
theorem keepA_arg2 (G : Valuation τ sig (Elt F)) : after lineA G (Proc.devRef .tc main_arg2) = G (Proc.devRef .tc main_arg2) :=
  after_of_forall_not_mem (b := (Proc.devRef .tc main_arg2)) _ _ (by untouched lineA)
theorem keepA_arg3 (G : Valuation τ sig (Elt F)) : after lineA G (Proc.devRef .tc main_arg3) = G (Proc.devRef .tc main_arg3) :=
  after_of_forall_not_mem (b := (Proc.devRef .tc main_arg3)) _ _ (by untouched lineA)
theorem keepA_arg4 (G : Valuation τ sig (Elt F)) : after lineA G (Proc.devRef .tc main_arg4) = G (Proc.devRef .tc main_arg4) :=
  after_of_forall_not_mem (b := (Proc.devRef .tc main_arg4)) _ _ (by untouched lineA)
theorem keepA_arg5 (G : Valuation τ sig (Elt F)) : after lineA G (Proc.devRef .tc main_arg5) = G (Proc.devRef .tc main_arg5) :=
  after_of_forall_not_mem (b := (Proc.devRef .tc main_arg5)) _ _ (by untouched lineA)
theorem keepB_arg1 (G : Valuation τ sig (Elt F)) : after lineB G (Proc.devRef .tc main_arg1) = G (Proc.devRef .tc main_arg1) :=
  after_of_forall_not_mem (b := (Proc.devRef .tc main_arg1)) _ _ (by untouched lineB)
theorem keepB_arg2 (G : Valuation τ sig (Elt F)) : after lineB G (Proc.devRef .tc main_arg2) = G (Proc.devRef .tc main_arg2) :=
  after_of_forall_not_mem (b := (Proc.devRef .tc main_arg2)) _ _ (by untouched lineB)
theorem keepB_arg3 (G : Valuation τ sig (Elt F)) : after lineB G (Proc.devRef .tc main_arg3) = G (Proc.devRef .tc main_arg3) :=
  after_of_forall_not_mem (b := (Proc.devRef .tc main_arg3)) _ _ (by untouched lineB)
theorem keepB_arg4 (G : Valuation τ sig (Elt F)) : after lineB G (Proc.devRef .tc main_arg4) = G (Proc.devRef .tc main_arg4) :=
  after_of_forall_not_mem (b := (Proc.devRef .tc main_arg4)) _ _ (by untouched lineB)
theorem keepB_arg5 (G : Valuation τ sig (Elt F)) : after lineB G (Proc.devRef .tc main_arg5) = G (Proc.devRef .tc main_arg5) :=
  after_of_forall_not_mem (b := (Proc.devRef .tc main_arg5)) _ _ (by untouched lineB)
theorem keepC_v21 (G : Valuation τ sig (Elt F)) : after lineC G (Proc.devRef .tc main_v21) = G (Proc.devRef .tc main_v21) :=
  after_of_forall_not_mem (b := (Proc.devRef .tc main_v21)) _ _ (by untouched lineC)
theorem keepC_arg4 (G : Valuation τ sig (Elt F)) : after lineC G (Proc.devRef .tc main_arg4) = G (Proc.devRef .tc main_arg4) :=
  after_of_forall_not_mem (b := (Proc.devRef .tc main_arg4)) _ _ (by untouched lineC)
theorem keepC_arg5 (G : Valuation τ sig (Elt F)) : after lineC G (Proc.devRef .tc main_arg5) = G (Proc.devRef .tc main_arg5) :=
  after_of_forall_not_mem (b := (Proc.devRef .tc main_arg5)) _ _ (by untouched lineC)
theorem keepD_v21 (G : Valuation τ sig (Elt F)) : after lineD G (Proc.devRef .tc main_v21) = G (Proc.devRef .tc main_v21) :=
  after_of_forall_not_mem (b := (Proc.devRef .tc main_v21)) _ _ (by untouched lineD)
theorem keepD_v36 (G : Valuation τ sig (Elt F)) : after lineD G (Proc.devRef .tc main_v36) = G (Proc.devRef .tc main_v36) :=
  after_of_forall_not_mem (b := (Proc.devRef .tc main_v36)) _ _ (by untouched lineD)

/-- The first thirteen operations leave the input with its first 64 derived columns appended. -/
theorem atA (G : Valuation τ sig (Elt F)) :
    after lineA G (Proc.devRef .tc main_v10) = Cert.ReferenceIdeal.Stages.expand1 (G (Proc.devRef .tc main_arg0)) (G (Proc.devRef .tc main_arg6)) (G (Proc.devRef .tc main_arg7)) := by
  unfold lineA
  after_results_simp <;> rfl

/-- The next thirteen append the second 64 derived columns to what they find in that buffer. -/
theorem atB (G : Valuation τ sig (Elt F)) :
    after lineB G (Proc.devRef .tc main_v21) = Cert.ReferenceIdeal.Stages.expand2 (G (Proc.devRef .tc main_v10)) (G (Proc.devRef .tc main_arg8)) (G (Proc.devRef .tc main_arg9)) := by
  unfold lineB
  after_results_simp <;> rfl

/-- The next twenty build the dense weights from the sparse entries. -/
theorem atC (G : Valuation τ sig (Elt F)) :
    after lineC G (Proc.devRef .tc main_v36) = Cert.ReferenceIdeal.Stages.weights (G (Proc.devRef .tc main_arg1)) (G (Proc.devRef .tc main_arg2)) (G (Proc.devRef .tc main_arg3)) := by
  unfold lineC
  after_results_simp <;> rfl

/-- The next eleven build the dense bias. -/
theorem atD (G : Valuation τ sig (Elt F)) :
    after lineD G (Proc.devRef .tc main_v44) = Cert.ReferenceIdeal.Stages.bias (G (Proc.devRef .tc main_arg4)) (G (Proc.devRef .tc main_arg5)) := by
  unfold lineD
  after_results_simp <;> rfl

/-- The last four operations: the three staged arrays from the three arrays before them. -/
theorem atE_inputs (G : Valuation τ sig (Elt F)) :
    after lineE G (Proc.devRef .tc main_v45) = truncf .bf16 (G (Proc.devRef .tc main_v21) : (⟨S8192x2176, .f32⟩ : BufTy).Contents (Elt F)) bitsLt_bf16_f32 := by
  unfold lineE
  after_results_simp <;> rfl

theorem atE_weights (G : Valuation τ sig (Elt F)) :
    after lineE G (Proc.devRef .tc main_v47)
      = truncf .bf16 (transpose S2176x2048 [1, 0] (G (Proc.devRef .tc main_v36) : (⟨S2048x2176, .f32⟩ : BufTy).Contents (Elt F)) transposes_S2048x2176_S2176x2048_1_0) bitsLt_bf16_f32 := by
  unfold lineE
  after_results_simp <;> rfl

theorem atE_bias (G : Valuation τ sig (Elt F)) :
    after lineE G (Proc.devRef .tc main_v48) = shapeCast S1x2048 (G (Proc.devRef .tc main_v44) : (⟨S2048, .f32⟩ : BufTy).Contents (Elt F)) shapeCasts_S2048_S1x2048 := by
  unfold lineE
  after_results_simp <;> rfl

variable (m : (ℓ : Loc nD τ sig) → Buf (Elt F) ℓ)

/-- The first staged array: the expanded inputs, narrowed. -/
theorem entry_inputs (c : Dev nD) :
    V m c main_v45 = truncf .bf16 (Cert.ReferenceIdeal.Stages.expand2 (Cert.ReferenceIdeal.Stages.expand1 (m ((c : Thread nD τ).loc main_arg0)) (m ((c : Thread nD τ).loc main_arg6)) (m ((c : Thread nD τ).loc main_arg7))) (m ((c : Thread nD τ).loc main_arg8)) (m ((c : Thread nD τ).loc main_arg9))) bitsLt_bf16_f32 := by
  show after hostOps0 (fun b => m (c, b)) (Proc.devRef .tc main_v45) = _
  rw [hostOps0_split, after_append, after_append, after_append, after_append, atE_inputs, keepD_v21, keepC_v21, atB, atA, keepA_arg8, keepA_arg9]

/-- The second staged array: the dense weights, transposed and narrowed. -/
theorem entry_weights (c : Dev nD) :
    V m c main_v47 = truncf .bf16 (transpose S2176x2048 [1, 0] (Cert.ReferenceIdeal.Stages.weights (m ((c : Thread nD τ).loc main_arg1)) (m ((c : Thread nD τ).loc main_arg2)) (m ((c : Thread nD τ).loc main_arg3))) transposes_S2048x2176_S2176x2048_1_0) bitsLt_bf16_f32 := by
  show after hostOps0 (fun b => m (c, b)) (Proc.devRef .tc main_v47) = _
  rw [hostOps0_split, after_append, after_append, after_append, after_append, atE_weights, keepD_v36, atC, keepB_arg1, keepB_arg2, keepB_arg3, keepA_arg1, keepA_arg2, keepA_arg3]

/-- The third staged array: the dense bias, recast as one row. -/
theorem entry_bias (c : Dev nD) :
    V m c main_v48 = shapeCast S1x2048 (Cert.ReferenceIdeal.Stages.bias (m ((c : Thread nD τ).loc main_arg4)) (m ((c : Thread nD τ).loc main_arg5))) shapeCasts_S2048_S1x2048 := by
  show after hostOps0 (fun b => m (c, b)) (Proc.devRef .tc main_v48) = _
  rw [hostOps0_split, after_append, after_append, after_append, after_append, atE_bias, atD, keepC_arg4, keepC_arg5, keepB_arg4, keepB_arg5, keepA_arg4, keepA_arg5]

end Cert.KernelIdeal.HostValue

end
-- ==== Proof.RefRun.lean ====
/-
  The reference's run, read piece by piece. The reference is a straight line of 62 host operations. Its first 57 fall
  into four stretches that each leave ONE array the later ones use — the input with 64 derived columns appended, that
  with 64 more, the dense weights, the dense bias — and each stretch reads only the arguments and the array of the
  stretch before; the last five transpose the weights, contract, and add the bias to every row. The line is cut at
  those four places (`after_append`), each stretch is run from ANY contents and its array named by the function of
  Proof/Stages.lean, and a stretch that does not write a buffer leaves it as it was. So the result buffer ends at the
  last five operations of the three named arrays of the arguments, and the arguments end unchanged.
-/
import proofs.«112818_j75720273428633_1_alg».proof.Proof.Gen.ReferenceIdeal
import proofs.«112818_j75720273428633_1_alg».proof.Proof.Stages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 62 operations, in order. -/
abbrev ops : List (HloOp τ sig (Elt F)) :=
  [ nullary main_c (constantI S_ 32 0#32),
    unary main_c main_v0 (broadcastInDim S64 ![] bcast_S_S64 : (⟨S_, .i32⟩ : BufTy).Contents (Elt F) → (⟨S64, .i32⟩ : BufTy).Contents (Elt F)),
    binary main_arg7 main_v0 main_v1 (cmpi .slt : (⟨S64, .i32⟩ : BufTy).Contents (Elt F) → (⟨S64, .i32⟩ : BufTy).Contents (Elt F) → (⟨S64, .i1⟩ : BufTy).Contents (Elt F)),
    nullary main_c_0 (constantI S_ 32 2048#32),
    unary main_c_0 main_v2 (broadcastInDim S64 ![] bcast_S_S64 : (⟨S_, .i32⟩ : BufTy).Contents (Elt F) → (⟨S64, .i32⟩ : BufTy).Contents (Elt F)),
    binary main_arg7 main_v2 main_v3 (addi : (⟨S64, .i32⟩ : BufTy).Contents (Elt F) → (⟨S64, .i32⟩ : BufTy).Contents (Elt F) → (⟨S64, .i32⟩ : BufTy).Contents (Elt F)),
    ternary main_v1 main_v3 main_arg7 main_v4 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v4 main_v5 (broadcastInDim S64x1 ![0] bcast_S64_S64x1_0 : (⟨S64, .i32⟩ : BufTy).Contents (Elt F) → (⟨S64x1, .i32⟩ : BufTy).Contents (Elt F)),
    binary main_arg0 main_v5 main_v6 ((fun x i => Host.gather gather_S8192x2048_S64x1_S8192x64_0_1_n_n_1_1_81921 x i) : (⟨S8192x2048, .f32⟩ : BufTy).Contents (Elt F) → (⟨S64x1, .i32⟩ : BufTy).Contents (Elt F) → (⟨S8192x64, .f32⟩ : BufTy).Contents (Elt F)),
    unary main_arg6 main_v7 (broadcastInDim S1x64 ![1] bcast_S64_S1x64_1 : (⟨S64, .f32⟩ : BufTy).Contents (Elt F) → (⟨S1x64, .f32⟩ : BufTy).Contents (Elt F)),
    unary main_v7 main_v8 (broadcastInDim S8192x64 ![0, 1] bcast_S1x64_S8192x64_0_1 : (⟨S1x64, .f32⟩ : BufTy).Contents (Elt F) → (⟨S8192x64, .f32⟩ : BufTy).Contents (Elt F)),
    binary main_v6 main_v8 main_v9 (mulf : (⟨S8192x64, .f32⟩ : BufTy).Contents (Elt F) → (⟨S8192x64, .f32⟩ : BufTy).Contents (Elt F) → (⟨S8192x64, .f32⟩ : BufTy).Contents (Elt F)),
    binary main_arg0 main_v9 main_v10 ((fun a b => concatenate S8192x2112 1 [⟨S8192x2048, a⟩, ⟨S8192x64, b⟩] concatenates_S8192x2048_S8192x64_S8192x2112_d1) : (⟨S8192x2048, .f32⟩ : BufTy).Contents (Elt F) → (⟨S8192x64, .f32⟩ : BufTy).Contents (Elt F) → (⟨S8192x2112, .f32⟩ : BufTy).Contents (Elt F)),
    nullary main_c_1 (constantI S_ 32 0#32),
    unary main_c_1 main_v11 (broadcastInDim S64 ![] bcast_S_S64 : (⟨S_, .i32⟩ : BufTy).Contents (Elt F) → (⟨S64, .i32⟩ : BufTy).Contents (Elt F)),
    binary main_arg9 main_v11 main_v12 (cmpi .slt : (⟨S64, .i32⟩ : BufTy).Contents (Elt F) → (⟨S64, .i32⟩ : BufTy).Contents (Elt F) → (⟨S64, .i1⟩ : BufTy).Contents (Elt F)),
    nullary main_c_2 (constantI S_ 32 2112#32),
    unary main_c_2 main_v13 (broadcastInDim S64 ![] bcast_S_S64 : (⟨S_, .i32⟩ : BufTy).Contents (Elt F) → (⟨S64, .i32⟩ : BufTy).Contents (Elt F)),
    binary main_arg9 main_v13 main_v14 (addi : (⟨S64, .i32⟩ : BufTy).Contents (Elt F) → (⟨S64, .i32⟩ : BufTy).Contents (Elt F) → (⟨S64, .i32⟩ : BufTy).Contents (Elt F)),
    ternary main_v12 main_v14 main_arg9 main_v15 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v15 main_v16 (broadcastInDim S64x1 ![0] bcast_S64_S64x1_0 : (⟨S64, .i32⟩ : BufTy).Contents (Elt F) → (⟨S64x1, .i32⟩ : BufTy).Contents (Elt F)),
    binary main_v10 main_v16 main_v17 ((fun x i => Host.gather gather_S8192x2112_S64x1_S8192x64_0_1_n_n_1_1_81921 x i) : (⟨S8192x2112, .f32⟩ : BufTy).Contents (Elt F) → (⟨S64x1, .i32⟩ : BufTy).Contents (Elt F) → (⟨S8192x64, .f32⟩ : BufTy).Contents (Elt F)),
    unary main_arg8 main_v18 (broadcastInDim S1x64 ![1] bcast_S64_S1x64_1 : (⟨S64, .f32⟩ : BufTy).Contents (Elt F) → (⟨S1x64, .f32⟩ : BufTy).Contents (Elt F)),
    unary main_v18 main_v19 (broadcastInDim S8192x64 ![0, 1] bcast_S1x64_S8192x64_0_1 : (⟨S1x64, .f32⟩ : BufTy).Contents (Elt F) → (⟨S8192x64, .f32⟩ : BufTy).Contents (Elt F)),
    binary main_v17 main_v19 main_v20 (mulf : (⟨S8192x64, .f32⟩ : BufTy).Contents (Elt F) → (⟨S8192x64, .f32⟩ : BufTy).Contents (Elt F) → (⟨S8192x64, .f32⟩ : BufTy).Contents (Elt F)),
    binary main_v10 main_v20 main_v21 ((fun a b => concatenate S8192x2176 1 [⟨S8192x2112, a⟩, ⟨S8192x64, b⟩] concatenates_S8192x2112_S8192x64_S8192x2176_d1) : (⟨S8192x2112, .f32⟩ : BufTy).Contents (Elt F) → (⟨S8192x64, .f32⟩ : BufTy).Contents (Elt F) → (⟨S8192x2176, .f32⟩ : BufTy).Contents (Elt F)),
    nullary main_cst (constant S_ .f32 0x00000000#32),
    unary main_cst main_v22 (broadcastInDim S2048x2176 ![] bcast_S_S2048x2176 : (⟨S_, .f32⟩ : BufTy).Contents (Elt F) → (⟨S2048x2176, .f32⟩ : BufTy).Contents (Elt F)),
    nullary main_c_3 (constantI S_ 32 0#32),
    unary main_c_3 main_v23 (broadcastInDim S400000 ![] bcast_S_S400000 : (⟨S_, .i32⟩ : BufTy).Contents (Elt F) → (⟨S400000, .i32⟩ : BufTy).Contents (Elt F)),
    binary main_arg2 main_v23 main_v24 (cmpi .slt : (⟨S400000, .i32⟩ : BufTy).Contents (Elt F) → (⟨S400000, .i32⟩ : BufTy).Contents (Elt F) → (⟨S400000, .i1⟩ : BufTy).Contents (Elt F)),
    nullary main_c_4 (constantI S_ 32 2048#32),
    unary main_c_4 main_v25 (broadcastInDim S400000 ![] bcast_S_S400000 : (⟨S_, .i32⟩ : BufTy).Contents (Elt F) → (⟨S400000, .i32⟩ : BufTy).Contents (Elt F)),
    binary main_arg2 main_v25 main_v26 (addi : (⟨S400000, .i32⟩ : BufTy).Contents (Elt F) → (⟨S400000, .i32⟩ : BufTy).Contents (Elt F) → (⟨S400000, .i32⟩ : BufTy).Contents (Elt F)),
    ternary main_v24 main_v26 main_arg2 main_v27 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    nullary main_c_5 (constantI S_ 32 0#32),
    unary main_c_5 main_v28 (broadcastInDim S400000 ![] bcast_S_S400000 : (⟨S_, .i32⟩ : BufTy).Contents (Elt F) → (⟨S400000, .i32⟩ : BufTy).Contents (Elt F)),
    binary main_arg3 main_v28 main_v29 (cmpi .slt : (⟨S400000, .i32⟩ : BufTy).Contents (Elt F) → (⟨S400000, .i32⟩ : BufTy).Contents (Elt F) → (⟨S400000, .i1⟩ : BufTy).Contents (Elt F)),
    nullary main_c_6 (constantI S_ 32 2176#32),
    unary main_c_6 main_v30 (broadcastInDim S400000 ![] bcast_S_S400000 : (⟨S_, .i32⟩ : BufTy).Contents (Elt F) → (⟨S400000, .i32⟩ : BufTy).Contents (Elt F)),
    binary main_arg3 main_v30 main_v31 (addi : (⟨S400000, .i32⟩ : BufTy).Contents (Elt F) → (⟨S400000, .i32⟩ : BufTy).Contents (Elt F) → (⟨S400000, .i32⟩ : BufTy).Contents (Elt F)),
    ternary main_v29 main_v31 main_arg3 main_v32 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v27 main_v33 (broadcastInDim S400000x1 ![0] bcast_S400000_S400000x1_0 : (⟨S400000, .i32⟩ : BufTy).Contents (Elt F) → (⟨S400000x1, .i32⟩ : BufTy).Contents (Elt F)),
    unary main_v32 main_v34 (broadcastInDim S400000x1 ![0] bcast_S400000_S400000x1_0 : (⟨S400000, .i32⟩ : BufTy).Contents (Elt F) → (⟨S400000x1, .i32⟩ : BufTy).Contents (Elt F)),
    binary main_v33 main_v34 main_v35 ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F)),
    ternary main_v22 main_v35 main_arg1 main_v36 ((fun x i u => Host.scatterAdd scatter_S2048x2176_S400000x2_S400000_n_01_01_1 x i u) : (⟨S2048x2176, .f32⟩ : BufTy).Contents (Elt F) → (⟨S400000x2, .i32⟩ : BufTy).Contents (Elt F) → (⟨S400000, .f32⟩ : BufTy).Contents (Elt F) → (⟨S2048x2176, .f32⟩ : BufTy).Contents (Elt F)),
    nullary main_cst_7 (constant S_ .f32 0x00000000#32),
    unary main_cst_7 main_v37 (broadcastInDim S2048 ![] bcast_S_S2048 : (⟨S_, .f32⟩ : BufTy).Contents (Elt F) → (⟨S2048, .f32⟩ : BufTy).Contents (Elt F)),
    nullary main_c_8 (constantI S_ 32 0#32),
    unary main_c_8 main_v38 (broadcastInDim S1024 ![] bcast_S_S1024 : (⟨S_, .i32⟩ : BufTy).Contents (Elt F) → (⟨S1024, .i32⟩ : BufTy).Contents (Elt F)),
    binary main_arg5 main_v38 main_v39 (cmpi .slt : (⟨S1024, .i32⟩ : BufTy).Contents (Elt F) → (⟨S1024, .i32⟩ : BufTy).Contents (Elt F) → (⟨S1024, .i1⟩ : BufTy).Contents (Elt F)),
    nullary main_c_9 (constantI S_ 32 2048#32),
    unary main_c_9 main_v40 (broadcastInDim S1024 ![] bcast_S_S1024 : (⟨S_, .i32⟩ : BufTy).Contents (Elt F) → (⟨S1024, .i32⟩ : BufTy).Contents (Elt F)),
    binary main_arg5 main_v40 main_v41 (addi : (⟨S1024, .i32⟩ : BufTy).Contents (Elt F) → (⟨S1024, .i32⟩ : BufTy).Contents (Elt F) → (⟨S1024, .i32⟩ : BufTy).Contents (Elt F)),
    ternary main_v39 main_v41 main_arg5 main_v42 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v42 main_v43 (broadcastInDim S1024x1 ![0] bcast_S1024_S1024x1_0 : (⟨S1024, .i32⟩ : BufTy).Contents (Elt F) → (⟨S1024x1, .i32⟩ : BufTy).Contents (Elt F)),
    ternary main_v37 main_v43 main_arg4 main_v44 ((fun x i u => Host.scatterAdd scatter_S2048_S1024x1_S1024_n_0_0_1 x i u) : (⟨S2048, .f32⟩ : BufTy).Contents (Elt F) → (⟨S1024x1, .i32⟩ : BufTy).Contents (Elt F) → (⟨S1024, .f32⟩ : BufTy).Contents (Elt F) → (⟨S2048, .f32⟩ : BufTy).Contents (Elt F)),
    unary main_v36 main_v45 ((transpose S2176x2048 [1, 0] · transposes_S2048x2176_S2176x2048_1_0) : (⟨S2048x2176, .f32⟩ : BufTy).Contents (Elt F) → (⟨S2176x2048, .f32⟩ : BufTy).Contents (Elt F)),
    binary main_v21 main_v45 main_v46 ((fun l r => Host.dotGeneral dot_S8192x2176_S2176x2048_S8192x2048_1_0_0_1_n_n none l r) : (⟨S8192x2176, .f32⟩ : BufTy).Contents (Elt F) → (⟨S2176x2048, .f32⟩ : BufTy).Contents (Elt F) → (⟨S8192x2048, .f32⟩ : BufTy).Contents (Elt F)),
    unary main_v44 main_v47 (broadcastInDim S1x2048 ![1] bcast_S2048_S1x2048_1 : (⟨S2048, .f32⟩ : BufTy).Contents (Elt F) → (⟨S1x2048, .f32⟩ : BufTy).Contents (Elt F)),
    unary main_v47 main_v48 (broadcastInDim S8192x2048 ![0, 1] bcast_S1x2048_S8192x2048_0_1 : (⟨S1x2048, .f32⟩ : BufTy).Contents (Elt F) → (⟨S8192x2048, .f32⟩ : BufTy).Contents (Elt F)),
    binary main_v46 main_v48 main_v49 (addf : (⟨S8192x2048, .f32⟩ : BufTy).Contents (Elt F) → (⟨S8192x2048, .f32⟩ : BufTy).Contents (Elt F) → (⟨S8192x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., binary_bufs_sub .., unary_bufs_sub .., unary_bufs_sub .., binary_bufs_sub ..⟩

/-- Operations 1 to 13 of the line. -/
def lineA : List (HloOp τ sig (Elt F)) :=
  [ nullary main_c (constantI S_ 32 0#32),
    unary main_c main_v0 (broadcastInDim S64 ![] bcast_S_S64 : (⟨S_, .i32⟩ : BufTy).Contents (Elt F) → (⟨S64, .i32⟩ : BufTy).Contents (Elt F)),
    binary main_arg7 main_v0 main_v1 (cmpi .slt : (⟨S64, .i32⟩ : BufTy).Contents (Elt F) → (⟨S64, .i32⟩ : BufTy).Contents (Elt F) → (⟨S64, .i1⟩ : BufTy).Contents (Elt F)),
    nullary main_c_0 (constantI S_ 32 2048#32),
    unary main_c_0 main_v2 (broadcastInDim S64 ![] bcast_S_S64 : (⟨S_, .i32⟩ : BufTy).Contents (Elt F) → (⟨S64, .i32⟩ : BufTy).Contents (Elt F)),
    binary main_arg7 main_v2 main_v3 (addi : (⟨S64, .i32⟩ : BufTy).Contents (Elt F) → (⟨S64, .i32⟩ : BufTy).Contents (Elt F) → (⟨S64, .i32⟩ : BufTy).Contents (Elt F)),
    ternary main_v1 main_v3 main_arg7 main_v4 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v4 main_v5 (broadcastInDim S64x1 ![0] bcast_S64_S64x1_0 : (⟨S64, .i32⟩ : BufTy).Contents (Elt F) → (⟨S64x1, .i32⟩ : BufTy).Contents (Elt F)),
    binary main_arg0 main_v5 main_v6 ((fun x i => Host.gather gather_S8192x2048_S64x1_S8192x64_0_1_n_n_1_1_81921 x i) : (⟨S8192x2048, .f32⟩ : BufTy).Contents (Elt F) → (⟨S64x1, .i32⟩ : BufTy).Contents (Elt F) → (⟨S8192x64, .f32⟩ : BufTy).Contents (Elt F)),
    unary main_arg6 main_v7 (broadcastInDim S1x64 ![1] bcast_S64_S1x64_1 : (⟨S64, .f32⟩ : BufTy).Contents (Elt F) → (⟨S1x64, .f32⟩ : BufTy).Contents (Elt F)),
    unary main_v7 main_v8 (broadcastInDim S8192x64 ![0, 1] bcast_S1x64_S8192x64_0_1 : (⟨S1x64, .f32⟩ : BufTy).Contents (Elt F) → (⟨S8192x64, .f32⟩ : BufTy).Contents (Elt F)),
    binary main_v6 main_v8 main_v9 (mulf : (⟨S8192x64, .f32⟩ : BufTy).Contents (Elt F) → (⟨S8192x64, .f32⟩ : BufTy).Contents (Elt F) → (⟨S8192x64, .f32⟩ : BufTy).Contents (Elt F)),
    binary main_arg0 main_v9 main_v10 ((fun a b => concatenate S8192x2112 1 [⟨S8192x2048, a⟩, ⟨S8192x64, b⟩] concatenates_S8192x2048_S8192x64_S8192x2112_d1) : (⟨S8192x2048, .f32⟩ : BufTy).Contents (Elt F) → (⟨S8192x64, .f32⟩ : BufTy).Contents (Elt F) → (⟨S8192x2112, .f32⟩ : BufTy).Contents (Elt F)) ]

/-- Operations 14 to 26 of the line. -/
def lineB : List (HloOp τ sig (Elt F)) :=
  [ nullary main_c_1 (constantI S_ 32 0#32),
    unary main_c_1 main_v11 (broadcastInDim S64 ![] bcast_S_S64 : (⟨S_, .i32⟩ : BufTy).Contents (Elt F) → (⟨S64, .i32⟩ : BufTy).Contents (Elt F)),
    binary main_arg9 main_v11 main_v12 (cmpi .slt : (⟨S64, .i32⟩ : BufTy).Contents (Elt F) → (⟨S64, .i32⟩ : BufTy).Contents (Elt F) → (⟨S64, .i1⟩ : BufTy).Contents (Elt F)),
    nullary main_c_2 (constantI S_ 32 2112#32),
    unary main_c_2 main_v13 (broadcastInDim S64 ![] bcast_S_S64 : (⟨S_, .i32⟩ : BufTy).Contents (Elt F) → (⟨S64, .i32⟩ : BufTy).Contents (Elt F)),
    binary main_arg9 main_v13 main_v14 (addi : (⟨S64, .i32⟩ : BufTy).Contents (Elt F) → (⟨S64, .i32⟩ : BufTy).Contents (Elt F) → (⟨S64, .i32⟩ : BufTy).Contents (Elt F)),
    ternary main_v12 main_v14 main_arg9 main_v15 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v15 main_v16 (broadcastInDim S64x1 ![0] bcast_S64_S64x1_0 : (⟨S64, .i32⟩ : BufTy).Contents (Elt F) → (⟨S64x1, .i32⟩ : BufTy).Contents (Elt F)),
    binary main_v10 main_v16 main_v17 ((fun x i => Host.gather gather_S8192x2112_S64x1_S8192x64_0_1_n_n_1_1_81921 x i) : (⟨S8192x2112, .f32⟩ : BufTy).Contents (Elt F) → (⟨S64x1, .i32⟩ : BufTy).Contents (Elt F) → (⟨S8192x64, .f32⟩ : BufTy).Contents (Elt F)),
    unary main_arg8 main_v18 (broadcastInDim S1x64 ![1] bcast_S64_S1x64_1 : (⟨S64, .f32⟩ : BufTy).Contents (Elt F) → (⟨S1x64, .f32⟩ : BufTy).Contents (Elt F)),
    unary main_v18 main_v19 (broadcastInDim S8192x64 ![0, 1] bcast_S1x64_S8192x64_0_1 : (⟨S1x64, .f32⟩ : BufTy).Contents (Elt F) → (⟨S8192x64, .f32⟩ : BufTy).Contents (Elt F)),
    binary main_v17 main_v19 main_v20 (mulf : (⟨S8192x64, .f32⟩ : BufTy).Contents (Elt F) → (⟨S8192x64, .f32⟩ : BufTy).Contents (Elt F) → (⟨S8192x64, .f32⟩ : BufTy).Contents (Elt F)),
    binary main_v10 main_v20 main_v21 ((fun a b => concatenate S8192x2176 1 [⟨S8192x2112, a⟩, ⟨S8192x64, b⟩] concatenates_S8192x2112_S8192x64_S8192x2176_d1) : (⟨S8192x2112, .f32⟩ : BufTy).Contents (Elt F) → (⟨S8192x64, .f32⟩ : BufTy).Contents (Elt F) → (⟨S8192x2176, .f32⟩ : BufTy).Contents (Elt F)) ]

/-- Operations 27 to 46 of the line. -/
def lineC : List (HloOp τ sig (Elt F)) :=
  [ nullary main_cst (constant S_ .f32 0x00000000#32),
    unary main_cst main_v22 (broadcastInDim S2048x2176 ![] bcast_S_S2048x2176 : (⟨S_, .f32⟩ : BufTy).Contents (Elt F) → (⟨S2048x2176, .f32⟩ : BufTy).Contents (Elt F)),
    nullary main_c_3 (constantI S_ 32 0#32),
    unary main_c_3 main_v23 (broadcastInDim S400000 ![] bcast_S_S400000 : (⟨S_, .i32⟩ : BufTy).Contents (Elt F) → (⟨S400000, .i32⟩ : BufTy).Contents (Elt F)),
    binary main_arg2 main_v23 main_v24 (cmpi .slt : (⟨S400000, .i32⟩ : BufTy).Contents (Elt F) → (⟨S400000, .i32⟩ : BufTy).Contents (Elt F) → (⟨S400000, .i1⟩ : BufTy).Contents (Elt F)),
    nullary main_c_4 (constantI S_ 32 2048#32),
    unary main_c_4 main_v25 (broadcastInDim S400000 ![] bcast_S_S400000 : (⟨S_, .i32⟩ : BufTy).Contents (Elt F) → (⟨S400000, .i32⟩ : BufTy).Contents (Elt F)),
    binary main_arg2 main_v25 main_v26 (addi : (⟨S400000, .i32⟩ : BufTy).Contents (Elt F) → (⟨S400000, .i32⟩ : BufTy).Contents (Elt F) → (⟨S400000, .i32⟩ : BufTy).Contents (Elt F)),
    ternary main_v24 main_v26 main_arg2 main_v27 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    nullary main_c_5 (constantI S_ 32 0#32),
    unary main_c_5 main_v28 (broadcastInDim S400000 ![] bcast_S_S400000 : (⟨S_, .i32⟩ : BufTy).Contents (Elt F) → (⟨S400000, .i32⟩ : BufTy).Contents (Elt F)),
    binary main_arg3 main_v28 main_v29 (cmpi .slt : (⟨S400000, .i32⟩ : BufTy).Contents (Elt F) → (⟨S400000, .i32⟩ : BufTy).Contents (Elt F) → (⟨S400000, .i1⟩ : BufTy).Contents (Elt F)),
    nullary main_c_6 (constantI S_ 32 2176#32),
    unary main_c_6 main_v30 (broadcastInDim S400000 ![] bcast_S_S400000 : (⟨S_, .i32⟩ : BufTy).Contents (Elt F) → (⟨S400000, .i32⟩ : BufTy).Contents (Elt F)),
    binary main_arg3 main_v30 main_v31 (addi : (⟨S400000, .i32⟩ : BufTy).Contents (Elt F) → (⟨S400000, .i32⟩ : BufTy).Contents (Elt F) → (⟨S400000, .i32⟩ : BufTy).Contents (Elt F)),
    ternary main_v29 main_v31 main_arg3 main_v32 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v27 main_v33 (broadcastInDim S400000x1 ![0] bcast_S400000_S400000x1_0 : (⟨S400000, .i32⟩ : BufTy).Contents (Elt F) → (⟨S400000x1, .i32⟩ : BufTy).Contents (Elt F)),
    unary main_v32 main_v34 (broadcastInDim S400000x1 ![0] bcast_S400000_S400000x1_0 : (⟨S400000, .i32⟩ : BufTy).Contents (Elt F) → (⟨S400000x1, .i32⟩ : BufTy).Contents (Elt F)),
    binary main_v33 main_v34 main_v35 ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F)),
    ternary main_v22 main_v35 main_arg1 main_v36 ((fun x i u => Host.scatterAdd scatter_S2048x2176_S400000x2_S400000_n_01_01_1 x i u) : (⟨S2048x2176, .f32⟩ : BufTy).Contents (Elt F) → (⟨S400000x2, .i32⟩ : BufTy).Contents (Elt F) → (⟨S400000, .f32⟩ : BufTy).Contents (Elt F) → (⟨S2048x2176, .f32⟩ : BufTy).Contents (Elt F)) ]

/-- Operations 47 to 57 of the line. -/
def lineD : List (HloOp τ sig (Elt F)) :=
  [ nullary main_cst_7 (constant S_ .f32 0x00000000#32),
    unary main_cst_7 main_v37 (broadcastInDim S2048 ![] bcast_S_S2048 : (⟨S_, .f32⟩ : BufTy).Contents (Elt F) → (⟨S2048, .f32⟩ : BufTy).Contents (Elt F)),
    nullary main_c_8 (constantI S_ 32 0#32),
    unary main_c_8 main_v38 (broadcastInDim S1024 ![] bcast_S_S1024 : (⟨S_, .i32⟩ : BufTy).Contents (Elt F) → (⟨S1024, .i32⟩ : BufTy).Contents (Elt F)),
    binary main_arg5 main_v38 main_v39 (cmpi .slt : (⟨S1024, .i32⟩ : BufTy).Contents (Elt F) → (⟨S1024, .i32⟩ : BufTy).Contents (Elt F) → (⟨S1024, .i1⟩ : BufTy).Contents (Elt F)),
    nullary main_c_9 (constantI S_ 32 2048#32),
    unary main_c_9 main_v40 (broadcastInDim S1024 ![] bcast_S_S1024 : (⟨S_, .i32⟩ : BufTy).Contents (Elt F) → (⟨S1024, .i32⟩ : BufTy).Contents (Elt F)),
    binary main_arg5 main_v40 main_v41 (addi : (⟨S1024, .i32⟩ : BufTy).Contents (Elt F) → (⟨S1024, .i32⟩ : BufTy).Contents (Elt F) → (⟨S1024, .i32⟩ : BufTy).Contents (Elt F)),
    ternary main_v39 main_v41 main_arg5 main_v42 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v42 main_v43 (broadcastInDim S1024x1 ![0] bcast_S1024_S1024x1_0 : (⟨S1024, .i32⟩ : BufTy).Contents (Elt F) → (⟨S1024x1, .i32⟩ : BufTy).Contents (Elt F)),
    ternary main_v37 main_v43 main_arg4 main_v44 ((fun x i u => Host.scatterAdd scatter_S2048_S1024x1_S1024_n_0_0_1 x i u) : (⟨S2048, .f32⟩ : BufTy).Contents (Elt F) → (⟨S1024x1, .i32⟩ : BufTy).Contents (Elt F) → (⟨S1024, .f32⟩ : BufTy).Contents (Elt F) → (⟨S2048, .f32⟩ : BufTy).Contents (Elt F)) ]

/-- Operations 58 to 62 of the line. -/
def lineE : List (HloOp τ sig (Elt F)) :=
  [ unary main_v36 main_v45 ((transpose S2176x2048 [1, 0] · transposes_S2048x2176_S2176x2048_1_0) : (⟨S2048x2176, .f32⟩ : BufTy).Contents (Elt F) → (⟨S2176x2048, .f32⟩ : BufTy).Contents (Elt F)),
    binary main_v21 main_v45 main_v46 ((fun l r => Host.dotGeneral dot_S8192x2176_S2176x2048_S8192x2048_1_0_0_1_n_n none l r) : (⟨S8192x2176, .f32⟩ : BufTy).Contents (Elt F) → (⟨S2176x2048, .f32⟩ : BufTy).Contents (Elt F) → (⟨S8192x2048, .f32⟩ : BufTy).Contents (Elt F)),
    unary main_v44 main_v47 (broadcastInDim S1x2048 ![1] bcast_S2048_S1x2048_1 : (⟨S2048, .f32⟩ : BufTy).Contents (Elt F) → (⟨S1x2048, .f32⟩ : BufTy).Contents (Elt F)),
    unary main_v47 main_v48 (broadcastInDim S8192x2048 ![0, 1] bcast_S1x2048_S8192x2048_0_1 : (⟨S1x2048, .f32⟩ : BufTy).Contents (Elt F) → (⟨S8192x2048, .f32⟩ : BufTy).Contents (Elt F)),
    binary main_v46 main_v48 main_v49 (addf : (⟨S8192x2048, .f32⟩ : BufTy).Contents (Elt F) → (⟨S8192x2048, .f32⟩ : BufTy).Contents (Elt F) → (⟨S8192x2048, .f32⟩ : BufTy).Contents (Elt F)) ]

/-- The line is its five stretches laid end to end. -/
theorem ops_split : (ops : List (HloOp τ sig (Elt F))) = lineA ++ (lineB ++ (lineC ++ (lineD ++ lineE))) := rfl

/-- No operation of a literal line writes a given buffer: each operation's one written buffer is another one. -/
local macro "untouched" L:ident : tactic => `(tactic| (
  refine List.forall_iff_forall_mem.mp ?_
  simp only [$L:ident, List.Forall, nullary_writes, unary_writes, binary_writes, ternary_writes, reshape_writes, Finset.mem_singleton]
  repeat' apply And.intro
  all_goals exact devRef_ne_of_ne (by decide)))

theorem keepA_arg8 (G : Valuation τ sig (Elt F)) : after lineA G (Proc.devRef .tc main_arg8) = G (Proc.devRef .tc main_arg8) :=
  after_of_forall_not_mem (b := (Proc.devRef .tc main_arg8)) _ _ (by untouched lineA)
theorem keepA_arg9 (G : Valuation τ sig (Elt F)) : after lineA G (Proc.devRef .tc main_arg9) = G (Proc.devRef .tc main_arg9) :=
  after_of_forall_not_mem (b := (Proc.devRef .tc main_arg9)) _ _ (by untouched lineA)
theorem keepA_arg1 (G : Valuation τ sig (Elt F)) : after lineA G (Proc.devRef .tc main_arg1) = G (Proc.devRef .tc main_arg1) :=
  after_of_forall_not_mem (b := (Proc.devRef .tc main_arg1)) _ _ (by untouched lineA)
theorem keepA_arg2 (G : Valuation τ sig (Elt F)) : after lineA G (Proc.devRef .tc main_arg2) = G (Proc.devRef .tc main_arg2) :=
  after_of_forall_not_mem (b := (Proc.devRef .tc main_arg2)) _ _ (by untouched lineA)
theorem keepA_arg3 (G : Valuation τ sig (Elt F)) : after lineA G (Proc.devRef .tc main_arg3) = G (Proc.devRef .tc main_arg3) :=
  after_of_forall_not_mem (b := (Proc.devRef .tc main_arg3)) _ _ (by untouched lineA)
theorem keepA_arg4 (G : Valuation τ sig (Elt F)) : after lineA G (Proc.devRef .tc main_arg4) = G (Proc.devRef .tc main_arg4) :=
  after_of_forall_not_mem (b := (Proc.devRef .tc main_arg4)) _ _ (by untouched lineA)
theorem keepA_arg5 (G : Valuation τ sig (Elt F)) : after lineA G (Proc.devRef .tc main_arg5) = G (Proc.devRef .tc main_arg5) :=
  after_of_forall_not_mem (b := (Proc.devRef .tc main_arg5)) _ _ (by untouched lineA)
theorem keepB_arg1 (G : Valuation τ sig (Elt F)) : after lineB G (Proc.devRef .tc main_arg1) = G (Proc.devRef .tc main_arg1) :=
  after_of_forall_not_mem (b := (Proc.devRef .tc main_arg1)) _ _ (by untouched lineB)
theorem keepB_arg2 (G : Valuation τ sig (Elt F)) : after lineB G (Proc.devRef .tc main_arg2) = G (Proc.devRef .tc main_arg2) :=
  after_of_forall_not_mem (b := (Proc.devRef .tc main_arg2)) _ _ (by untouched lineB)
theorem keepB_arg3 (G : Valuation τ sig (Elt F)) : after lineB G (Proc.devRef .tc main_arg3) = G (Proc.devRef .tc main_arg3) :=
  after_of_forall_not_mem (b := (Proc.devRef .tc main_arg3)) _ _ (by untouched lineB)
theorem keepB_arg4 (G : Valuation τ sig (Elt F)) : after lineB G (Proc.devRef .tc main_arg4) = G (Proc.devRef .tc main_arg4) :=
  after_of_forall_not_mem (b := (Proc.devRef .tc main_arg4)) _ _ (by untouched lineB)
theorem keepB_arg5 (G : Valuation τ sig (Elt F)) : after lineB G (Proc.devRef .tc main_arg5) = G (Proc.devRef .tc main_arg5) :=
  after_of_forall_not_mem (b := (Proc.devRef .tc main_arg5)) _ _ (by untouched lineB)
theorem keepC_v21 (G : Valuation τ sig (Elt F)) : after lineC G (Proc.devRef .tc main_v21) = G (Proc.devRef .tc main_v21) :=
  after_of_forall_not_mem (b := (Proc.devRef .tc main_v21)) _ _ (by untouched lineC)
theorem keepC_arg4 (G : Valuation τ sig (Elt F)) : after lineC G (Proc.devRef .tc main_arg4) = G (Proc.devRef .tc main_arg4) :=
  after_of_forall_not_mem (b := (Proc.devRef .tc main_arg4)) _ _ (by untouched lineC)
theorem keepC_arg5 (G : Valuation τ sig (Elt F)) : after lineC G (Proc.devRef .tc main_arg5) = G (Proc.devRef .tc main_arg5) :=
  after_of_forall_not_mem (b := (Proc.devRef .tc main_arg5)) _ _ (by untouched lineC)
theorem keepD_v21 (G : Valuation τ sig (Elt F)) : after lineD G (Proc.devRef .tc main_v21) = G (Proc.devRef .tc main_v21) :=
  after_of_forall_not_mem (b := (Proc.devRef .tc main_v21)) _ _ (by untouched lineD)
theorem keepD_v36 (G : Valuation τ sig (Elt F)) : after lineD G (Proc.devRef .tc main_v36) = G (Proc.devRef .tc main_v36) :=
  after_of_forall_not_mem (b := (Proc.devRef .tc main_v36)) _ _ (by untouched lineD)

/-- The first thirteen operations leave the input with its first 64 derived columns appended. -/
theorem atA (G : Valuation τ sig (Elt F)) :
    after lineA G (Proc.devRef .tc main_v10) = Stages.expand1 (G (Proc.devRef .tc main_arg0)) (G (Proc.devRef .tc main_arg6)) (G (Proc.devRef .tc main_arg7)) := by
  unfold lineA
  after_results_simp <;> rfl

/-- The next thirteen append the second 64 derived columns to what they find in that buffer. -/
theorem atB (G : Valuation τ sig (Elt F)) :
    after lineB G (Proc.devRef .tc main_v21) = Stages.expand2 (G (Proc.devRef .tc main_v10)) (G (Proc.devRef .tc main_arg8)) (G (Proc.devRef .tc main_arg9)) := by
  unfold lineB
  after_results_simp <;> rfl

/-- The next twenty build the dense weights from the sparse entries. -/
theorem atC (G : Valuation τ sig (Elt F)) :
    after lineC G (Proc.devRef .tc main_v36) = Stages.weights (G (Proc.devRef .tc main_arg1)) (G (Proc.devRef .tc main_arg2)) (G (Proc.devRef .tc main_arg3)) := by
  unfold lineC
  after_results_simp <;> rfl

/-- The next eleven build the dense bias. -/
theorem atD (G : Valuation τ sig (Elt F)) :
    after lineD G (Proc.devRef .tc main_v44) = Stages.bias (G (Proc.devRef .tc main_arg4)) (G (Proc.devRef .tc main_arg5)) := by
  unfold lineD
  after_results_simp <;> rfl

/-- The last five operations of the three arrays: the weights transposed, the contraction over the 2176 features, the
    bias laid along every row, the sum. -/
def last (x : (⟨S8192x2176, .f32⟩ : BufTy).Contents (Elt F)) (w : (⟨S2048x2176, .f32⟩ : BufTy).Contents (Elt F))
    (b : (⟨S2048, .f32⟩ : BufTy).Contents (Elt F)) : (⟨S8192x2048, .f32⟩ : BufTy).Contents (Elt F) :=
  addf (Host.dotGeneral dot_S8192x2176_S2176x2048_S8192x2048_1_0_0_1_n_n none x (transpose S2176x2048 [1, 0] w transposes_S2048x2176_S2176x2048_1_0))
    (broadcastInDim S8192x2048 ![0, 1] bcast_S1x2048_S8192x2048_0_1 (broadcastInDim S1x2048 ![1] bcast_S2048_S1x2048_1 b))

theorem atE (G : Valuation τ sig (Elt F)) :
    after lineE G (Proc.devRef .tc main_v49) = last (G (Proc.devRef .tc main_v21)) (G (Proc.devRef .tc main_v36)) (G (Proc.devRef .tc main_v44)) := by
  unfold lineE
  after_results_simp <;> rfl

/-- The reference's result as a function of its ten arguments. -/
def result (a0 : (⟨S8192x2048, .f32⟩ : BufTy).Contents (Elt F)) (a1 : (⟨S400000, .f32⟩ : BufTy).Contents (Elt F))
    (a2 a3 : (⟨S400000, .i32⟩ : BufTy).Contents (Elt F)) (a4 : (⟨S1024, .f32⟩ : BufTy).Contents (Elt F))
    (a5 : (⟨S1024, .i32⟩ : BufTy).Contents (Elt F)) (a6 : (⟨S64, .f32⟩ : BufTy).Contents (Elt F))
    (a7 : (⟨S64, .i32⟩ : BufTy).Contents (Elt F)) (a8 : (⟨S64, .f32⟩ : BufTy).Contents (Elt F))
    (a9 : (⟨S64, .i32⟩ : BufTy).Contents (Elt F)) : (⟨S8192x2048, .f32⟩ : BufTy).Contents (Elt F) :=
  last (Stages.expand2 (Stages.expand1 a0 a6 a7) a8 a9) (Stages.weights a1 a2 a3) (Stages.bias a4 a5)

/-- The result buffer after the whole line, from any launch contents. -/
theorem result_at (V : Valuation τ sig (Elt F)) :
    after ops V (Proc.devRef .tc main_v49) = result (V (Proc.devRef .tc main_arg0)) (V (Proc.devRef .tc main_arg1)) (V (Proc.devRef .tc main_arg2)) (V (Proc.devRef .tc main_arg3)) (V (Proc.devRef .tc main_arg4))
      (V (Proc.devRef .tc main_arg5)) (V (Proc.devRef .tc main_arg6)) (V (Proc.devRef .tc main_arg7)) (V (Proc.devRef .tc main_arg8)) (V (Proc.devRef .tc main_arg9)) := by
  rw [ops_split, after_append, after_append, after_append, after_append, atE,
    keepD_v21, keepD_v36, atD, keepC_v21, atC, keepC_arg4, keepC_arg5, atB, keepB_arg1, keepB_arg2, keepB_arg3, keepB_arg4, keepB_arg5,
    atA, keepA_arg8, keepA_arg9, keepA_arg1, keepA_arg2, keepA_arg3, keepA_arg4, keepA_arg5]
  rfl

theorem arg0_at (V : Valuation τ sig (Elt F)) : after ops V (Proc.devRef .tc main_arg0) = V (Proc.devRef .tc main_arg0) :=
  after_of_forall_not_mem (b := (Proc.devRef .tc main_arg0)) _ _ (by untouched ops)
theorem arg1_at (V : Valuation τ sig (Elt F)) : after ops V (Proc.devRef .tc main_arg1) = V (Proc.devRef .tc main_arg1) :=
  after_of_forall_not_mem (b := (Proc.devRef .tc main_arg1)) _ _ (by untouched ops)
theorem arg2_at (V : Valuation τ sig (Elt F)) : after ops V (Proc.devRef .tc main_arg2) = V (Proc.devRef .tc main_arg2) :=
  after_of_forall_not_mem (b := (Proc.devRef .tc main_arg2)) _ _ (by untouched ops)
theorem arg3_at (V : Valuation τ sig (Elt F)) : after ops V (Proc.devRef .tc main_arg3) = V (Proc.devRef .tc main_arg3) :=
  after_of_forall_not_mem (b := (Proc.devRef .tc main_arg3)) _ _ (by untouched ops)
theorem arg4_at (V : Valuation τ sig (Elt F)) : after ops V (Proc.devRef .tc main_arg4) = V (Proc.devRef .tc main_arg4) :=
  after_of_forall_not_mem (b := (Proc.devRef .tc main_arg4)) _ _ (by untouched ops)
theorem arg5_at (V : Valuation τ sig (Elt F)) : after ops V (Proc.devRef .tc main_arg5) = V (Proc.devRef .tc main_arg5) :=
  after_of_forall_not_mem (b := (Proc.devRef .tc main_arg5)) _ _ (by untouched ops)
theorem arg6_at (V : Valuation τ sig (Elt F)) : after ops V (Proc.devRef .tc main_arg6) = V (Proc.devRef .tc main_arg6) :=
  after_of_forall_not_mem (b := (Proc.devRef .tc main_arg6)) _ _ (by untouched ops)
theorem arg7_at (V : Valuation τ sig (Elt F)) : after ops V (Proc.devRef .tc main_arg7) = V (Proc.devRef .tc main_arg7) :=
  after_of_forall_not_mem (b := (Proc.devRef .tc main_arg7)) _ _ (by untouched ops)
theorem arg8_at (V : Valuation τ sig (Elt F)) : after ops V (Proc.devRef .tc main_arg8) = V (Proc.devRef .tc main_arg8) :=
  after_of_forall_not_mem (b := (Proc.devRef .tc main_arg8)) _ _ (by untouched ops)
theorem arg9_at (V : Valuation τ sig (Elt F)) : after ops V (Proc.devRef .tc main_arg9) = V (Proc.devRef .tc main_arg9) :=
  after_of_forall_not_mem (b := (Proc.devRef .tc main_arg9)) _ _ (by untouched ops)

/-- On every device, for any float values, from any memory with zero counters: every weakly fair execution of @main
    terminates with the result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v49).trans (result_at _),
      (h c main_arg0).trans (arg0_at _),
      (h c main_arg1).trans (arg1_at _),
      (h c main_arg2).trans (arg2_at _),
      (h c main_arg3).trans (arg3_at _),
      (h c main_arg4).trans (arg4_at _),
      (h c main_arg5).trans (arg5_at _),
      (h c main_arg6).trans (arg6_at _),
      (h c main_arg7).trans (arg7_at _),
      (h c main_arg8).trans (arg8_at _),
      (h c main_arg9).trans (arg9_at _)⟩)
    (run_seq scopedRefs_eq scopedSems_eq defs main (fun _ => ops) main_eq (fun _ => ops_sub) m ρ)

end Cert.ReferenceIdeal.HandRun

end
-- ==== Proof.RefValue.lean ====
/-
  The reference's last five operations as one function of the three arrays they read: the expanded inputs `X`
  ([8192, 2176]), the dense weights `W` ([2048, 2176], one row per output feature) and the dense bias `b` ([2048]).
  The reference transposes `W`, contracts `X` with it over the 2176 features and adds `b` to every row: on the
  extended reals entry `(p, q)` is `∑ k, X (p, k) · W (q, k) + b q` — the affine layer of `X` with the weights
  read transposed.
-/
import proofs.«112818_j75720273428633_1_alg».proof.Proof.RefRun
import proofs.«112818_j75720273428633_1_alg».proof.Proof.LibTransposed

noncomputable section

namespace Cert.ReferenceIdeal.RefValue

open Cert.ReferenceIdeal Cert.ReferenceIdeal.Gen Idealize.ShloMosaic Idealize.ShloMosaic.ValueIdx
open Cert.LayoutLib Cert.DenseLib Cert.RowBlocks Cert.TransposedLib

theorem last_eq (X : (⟨S8192x2176, .f32⟩ : BufTy).Contents (Elt Ideal)) (W : (⟨S2048x2176, .f32⟩ : BufTy).Contents (Elt Ideal))
    (b : (⟨S2048, .f32⟩ : BufTy).Contents (Elt Ideal)) :
    HandRun.last (F := Ideal) X W b = affine X (tr W) (fun q => b (ix1 q)) := by
  unfold HandRun.last
  rw [transpose_eq_tr, dotGeneral_eq_mm dot_S8192x2176_S2176x2048_S8192x2048_1_0_0_1_n_n rfl, broadcastInDim_eq_rows]
  rfl

/-- The reference's result of its arguments: the affine layer of the expanded inputs with the dense weights read
    transposed and the dense bias. -/
theorem result_eq (a0 : (⟨S8192x2048, .f32⟩ : BufTy).Contents (Elt Ideal)) (a1 : (⟨S400000, .f32⟩ : BufTy).Contents (Elt Ideal))
    (a2 a3 : (⟨S400000, .i32⟩ : BufTy).Contents (Elt Ideal)) (a4 : (⟨S1024, .f32⟩ : BufTy).Contents (Elt Ideal))
    (a5 : (⟨S1024, .i32⟩ : BufTy).Contents (Elt Ideal)) (a6 : (⟨S64, .f32⟩ : BufTy).Contents (Elt Ideal))
    (a7 : (⟨S64, .i32⟩ : BufTy).Contents (Elt Ideal)) (a8 : (⟨S64, .f32⟩ : BufTy).Contents (Elt Ideal))
    (a9 : (⟨S64, .i32⟩ : BufTy).Contents (Elt Ideal)) :
    HandRun.result (F := Ideal) a0 a1 a2 a3 a4 a5 a6 a7 a8 a9
      = affine (Stages.expand2 (Stages.expand1 a0 a6 a7) a8 a9) (tr (Stages.weights a1 a2 a3)) (fun q => Stages.bias a4 a5 (ix1 q)) :=
  last_eq _ _ _

end Cert.ReferenceIdeal.RefValue

end
-- ==== Proof.Bridge.lean ====
/-
  The two programs meet. Both first build, by the same host operations of the same arguments, the expanded inputs
  `X`, the dense weights `W` (one row per output feature) and the dense bias `b` (Proof/Stages.lean). The kernel's
  program then stages `X` narrowed, `W` transposed and narrowed, and `b` as one row, and its grid computes the affine
  layer of the staged arrays; the reference transposes `W`, contracts and adds `b`. On the extended reals narrowing
  is the identity, the host's transpose reads `W (q, k)` at `(k, q)` and the one-row recast reads `b q` at `(0, q)`:
  both results are `∑ k, X (p, k) · W (q, k) + b q`. No law beyond the definitions is used, and no finiteness.
-/
import proofs.«112818_j75720273428633_1_alg».proof.Proof.KernelValue
import proofs.«112818_j75720273428633_1_alg».proof.Proof.KernelHost
import proofs.«112818_j75720273428633_1_alg».proof.Proof.RefValue

noncomputable section

namespace Cert.Proof.Bridge

open Idealize.ShloMosaic Idealize.ShloMosaic.TcCoe Idealize.SL.Sem Idealize.ShloMosaic.ValueIdx
open Cert.LayoutLib Cert.DenseLib Cert.RowBlocks Cert.TransposedLib

/-- The common result, of the kernel's arguments: the affine layer of the expanded inputs with the dense weights
    read transposed and the dense bias. -/
def result (m : (ℓ : Loc Cert.KernelIdeal.nD Cert.KernelIdeal.τ Cert.KernelIdeal.sig) → Buf (Elt Ideal) ℓ)
    (c : Dev Cert.KernelIdeal.nD) : Cert.KernelIdeal.S8192x2048.Idx → EReal :=
  affine (Cert.ReferenceIdeal.Stages.expand2 (F := Ideal) (Cert.ReferenceIdeal.Stages.expand1 (F := Ideal) (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7))) (m ((c : Thread Cert.KernelIdeal.nD Cert.KernelIdeal.τ).loc Cert.KernelIdeal.main_arg8)) (m ((c : Thread Cert.KernelIdeal.nD Cert.KernelIdeal.τ).loc Cert.KernelIdeal.main_arg9)))
    (tr (Cert.ReferenceIdeal.Stages.weights (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3))))
    (fun q => Cert.ReferenceIdeal.Stages.bias (F := Ideal) (m ((c : Thread Cert.KernelIdeal.nD Cert.KernelIdeal.τ).loc Cert.KernelIdeal.main_arg4)) (m ((c : Thread Cert.KernelIdeal.nD Cert.KernelIdeal.τ).loc Cert.KernelIdeal.main_arg5)) (ix1 q))

/-- The layer of the staged arrays is the common result: narrowing is the identity, the staged weights are the
    dense weights read transposed, the staged bias row reads the dense bias. -/
theorem layer_eq (m : (ℓ : Loc Cert.KernelIdeal.nD Cert.KernelIdeal.τ Cert.KernelIdeal.sig) → Buf (Elt Ideal) ℓ)
    (c : Dev Cert.KernelIdeal.nD) : Cert.KernelIdeal.ArrayValue.layer m c = result m c := by
  unfold Cert.KernelIdeal.ArrayValue.layer result
  rw [Cert.KernelIdeal.HostValue.entry_inputs m c, Cert.KernelIdeal.HostValue.entry_weights m c,
    Cert.KernelIdeal.HostValue.entry_bias m c]
  rw [truncf_eq, truncf_eq, transpose_eq_tr]
  refine congrArg (affine _ _) (funext fun q => ?_)
  exact shapeCast_vecRow_apply _ _ 0 q

/-- The kernel's run ends with the result array at the common result. -/
theorem kernel_run (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩
      fun r => ∀ c : Dev Cert.KernelIdeal.nD,
      r.2.mem ((c : Thread Cert.KernelIdeal.nD Cert.KernelIdeal.τ).loc Cert.KernelIdeal.main_v49) = result m c
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
      ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
      ∧ r.2.mem ((c : Thread Cert.KernelIdeal.nD Cert.KernelIdeal.τ).loc Cert.KernelIdeal.main_arg5) = m ((c : Thread Cert.KernelIdeal.nD Cert.KernelIdeal.τ).loc Cert.KernelIdeal.main_arg5)
      ∧ r.2.mem ((c : Thread Cert.KernelIdeal.nD Cert.KernelIdeal.τ).loc Cert.KernelIdeal.main_arg6) = m ((c : Thread Cert.KernelIdeal.nD Cert.KernelIdeal.τ).loc Cert.KernelIdeal.main_arg6)
      ∧ r.2.mem ((c : Thread Cert.KernelIdeal.nD Cert.KernelIdeal.τ).loc Cert.KernelIdeal.main_arg7) = m ((c : Thread Cert.KernelIdeal.nD Cert.KernelIdeal.τ).loc Cert.KernelIdeal.main_arg7)
      ∧ r.2.mem ((c : Thread Cert.KernelIdeal.nD Cert.KernelIdeal.τ).loc Cert.KernelIdeal.main_arg8) = m ((c : Thread Cert.KernelIdeal.nD Cert.KernelIdeal.τ).loc Cert.KernelIdeal.main_arg8)
      ∧ r.2.mem ((c : Thread Cert.KernelIdeal.nD Cert.KernelIdeal.τ).loc Cert.KernelIdeal.main_arg9) = m ((c : Thread Cert.KernelIdeal.nD Cert.KernelIdeal.τ).loc Cert.KernelIdeal.main_arg9) :=
  (θ_run Cert.KernelIdeal.defs _ _).mono (fun r h c => ⟨(h c).1.trans (layer_eq m c), (h c).2⟩)
    (Cert.KernelIdeal.ArrayValue.run m ρ)

/-- The reference's run ends with its result at the same function of ITS arguments. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩
      fun r => ∀ c : Dev Cert.ReferenceIdeal.nD,
      r.2.mem ((c.tc : Thread Cert.ReferenceIdeal.nD Cert.ReferenceIdeal.τ).loc Cert.ReferenceIdeal.main_v49)
        = affine (Cert.ReferenceIdeal.Stages.expand2 (F := Ideal) (Cert.ReferenceIdeal.Stages.expand1 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
            (tr (Cert.ReferenceIdeal.Stages.weights (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))))
            (fun q => Cert.ReferenceIdeal.Stages.bias (F := Ideal) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (ix1 q))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9) :=
  (θ_run Cert.ReferenceIdeal.defs _ _).mono
    (fun r h c => ⟨(h c).1.trans (Cert.ReferenceIdeal.RefValue.result_eq _ _ _ _ _ _ _ _ _ _), (h c).2⟩)
    (Cert.ReferenceIdeal.HandRun.run (F := Ideal) m' ρ')

end Cert.Proof.Bridge

end
-- ==== Proof.lean ====
/-
  The certificate of a sparse-to-dense linear layer: `X · Wᵀ + b` on 8192 rows, where `X` is the input with two
  groups of 64 gathered-and-scaled columns appended, and `W`, `b` are scatter-sums of sparse entries. The kernel's
  program and the reference build `X`, `W` and `b` by the same host operations; the kernel then computes the layer
  on a grid of 16 row blocks with bf16 operands into a zero accumulator, the reference by one contraction with the
  transposed weights. On the extended reals both are `∑ k, X (p, k) · W (q, k) + b q` (Proof/Bridge.lean). The kernel's
  two frames are the generated ones, the reference's frame is its run; the idealization rewrote nothing, so `preserves`
  is trivial.
-/
import proofs.«112818_j75720273428633_1_alg».proof.Defs
import proofs.«112818_j75720273428633_1_alg».proof.Proof.Gen.Kernel
import proofs.«112818_j75720273428633_1_alg».proof.Proof.Gen.Kernel.Skeleton
import proofs.«112818_j75720273428633_1_alg».proof.Proof.Gen.Kernel.Launch
import proofs.«112818_j75720273428633_1_alg».proof.Proof.Gen.Kernel.Points
import proofs.«112818_j75720273428633_1_alg».proof.Proof.Gen.Kernel.Frame
import proofs.«112818_j75720273428633_1_alg».proof.Proof.Gen.KernelIdeal
import proofs.«112818_j75720273428633_1_alg».proof.Proof.Gen.KernelIdeal.Skeleton
import proofs.«112818_j75720273428633_1_alg».proof.Proof.Gen.KernelIdeal.Launch
import proofs.«112818_j75720273428633_1_alg».proof.Proof.Gen.KernelIdeal.Points
import proofs.«112818_j75720273428633_1_alg».proof.Proof.Gen.KernelIdeal.Frame
import proofs.«112818_j75720273428633_1_alg».proof.Proof.Gen.ReferenceIdeal
import proofs.«112818_j75720273428633_1_alg».proof.Proof.Gen.Pre_finite_inputs
import proofs.«112818_j75720273428633_1_alg».proof.Proof.Gen.KernelIdeal.Value
import Idealize.ShloMosaic.Adequacy
import Idealize.ShloMosaic.Init
import proofs.«112818_j75720273428633_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run (Proof/RefRun.lean) with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end, from memories agreeing on the arguments, with the same function of the arguments. -/
theorem algebraic : Cert.algebraic_KernelIdeal_ReferenceIdeal := by
  intro m ρ m' ρ' _ hagree
  refine ⟨fun c => Bridge.result m c, Bridge.kernel_run m ρ, ?_⟩
  refine (θ_run Cert.ReferenceIdeal.defs _ _).mono (fun _ h c => ⟨(h c).1.trans ?_, (h c).2⟩)
    (Bridge.reference_run m' ρ')
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
